-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S512x32x16 : Shape := ⟨3, ![512, 32, 16]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S512x32x16 : S_.BroadcastsInDim S512x32x16 (![] : Fin 0 → Fin S512x32x16.rank)
  reducesTo_S512x32x16_S_d0_1_2 : S512x32x16.ReducesTo [0, 1, 2] S_

variable [Facts]

def fn {F : FTy → Type} [FloatOps F] (main_arg0 : FVec F S512x512 .f32) (main_arg1 : FVec F S512x32x16 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S512x32x16 .f32 := Host.absf main_arg1
  let main_cst_0 : FVec F S_ .f32 := constant S_ .f32 0x7F800000#32
  let main_v5 : FVec F S512x32x16 .f32 := broadcastInDim S512x32x16 ![] bcast_S_S512x32x16 main_cst_0
  let main_v6 : IVec S512x32x16 1 := cmpf .olt main_v4 main_v5
  let main_c_1 : IVec S_ 1 := constantI S_ 1 1#1
  let main_v7 : IVec S_ 1 := (fun x v => Host.reduce IntOp.andi x v reducesTo_S512x32x16_S_d0_1_2 h_S_) main_v6 main_c_1
  let main_v8 : IVec S_ 1 := andi main_v3 main_v7
  main_v8
-- ==== Kernel.lean ====
abbrev S512x512 : Shape := ⟨2, ![512, 512]⟩
abbrev S512x32x16 : Shape := ⟨3, ![512, 32, 16]⟩
abbrev S32x16x512 : Shape := ⟨3, ![32, 16, 512]⟩
abbrev S32x512 : Shape := ⟨2, ![32, 512]⟩
abbrev S32x16x128 : Shape := ⟨3, ![32, 16, 128]⟩
abbrev S32x128 : Shape := ⟨2, ![32, 128]⟩
abbrev S32x128x128 : Shape := ⟨3, ![32, 128, 128]⟩
abbrev S32x1x128 : Shape := ⟨3, ![32, 1, 128]⟩
abbrev S32x128x1 : Shape := ⟨3, ![32, 128, 1]⟩
abbrev S512x32 : Shape := ⟨2, ![512, 32]⟩
abbrev S512x544 : Shape := ⟨2, ![512, 544]⟩

abbrev nBuf : Space → Nat
  | .hbm => 11
  | .vmem => 10
  | .smem => 0
  | _ => 0

abbrev bufTy : (tb : Table) → Fin (tcTables nBuf tb) → BufTy
  | .hbm, ⟨0, _⟩ => ⟨S512x512, .f32⟩
  | .hbm, ⟨1, _⟩ => ⟨S512x32x16, .f32⟩
  | .hbm, ⟨2, _⟩ => ⟨S512x512, .f32⟩
  | .hbm, ⟨3, _⟩ => ⟨S512x512, .bf16⟩
  | .hbm, ⟨4, _⟩ => ⟨S512x512, .bf16⟩
  | .hbm, ⟨5, _⟩ => ⟨S512x512, .f32⟩
  | .hbm, ⟨6, _⟩ => ⟨S512x32x16, .f32⟩
  | .hbm, ⟨7, _⟩ => ⟨S32x16x512, .f32⟩
  | .hbm, ⟨8, _⟩ => ⟨S32x512, .f32⟩
  | .hbm, ⟨9, _⟩ => ⟨S512x32, .f32⟩
  | .hbm, ⟨10, _⟩ => ⟨S512x544, .f32⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S32x16x128, .f32⟩
  | .local _ .vmem, ⟨4, _⟩ => ⟨S32x16x128, .f32⟩
  | .local _ .vmem, ⟨5, _⟩ => ⟨S32x16x128, .f32⟩
  | .local _ .vmem, ⟨6, _⟩ => ⟨S32x16x128, .f32⟩
  | .local _ .vmem, ⟨7, _⟩ => ⟨S32x128, .f32⟩
  | .local _ .vmem, ⟨8, _⟩ => ⟨S32x128, .f32⟩
  | .local _ .vmem, ⟨9, _⟩ => ⟨S32x128, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_scratch0 : Ref sig .tc := ⟨.vmem, 9, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v193 : BitVec 1 := Scalar.cmpi .eq arg1 c3_i32
  let v194 : BitVec 32 := Scalar.extui v193
  let c0_i32_12 : BitVec 32 := 0#32
  let v195 : BitVec 1 := Scalar.cmpi .ne v194 c0_i32_12
  v195

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S32x16x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S32x16x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S32x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S512x32x16_S512x512 : S512x32x16.ShapeCasts S512x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S512x512_S512x32x16 : S512x512.ShapeCasts S512x32x16
  transposes_S512x32x16_S32x16x512_1_2_0 : S512x32x16.Transposes [1, 2, 0] S32x16x512
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S32x16x128_S32x16x128_0_0_0 : ∀ a, (![0, 0, 0] : Fin 3 → Nat) a + S32x16x128.size a ≤ S32x16x128.size a
  h_S32x16x128 : 0 < S32x16x128.numel
  shapeCasts_S32x16x128_S32x16x128 : S32x16x128.ShapeCasts S32x16x128
  slices_S32x16x128_o0_0_0_S32x1x128 : S32x16x128.Slices ![0, 0, 0] S32x1x128
  shapeCasts_S32x1x128_S32x128 : S32x1x128.ShapeCasts S32x128
  shapeCasts_S32x128_S32x128x1 : S32x128.ShapeCasts S32x128x1
  shapeCasts_S32x128_S32x1x128 : S32x128.ShapeCasts S32x1x128
  broadcasts_S32x128x1_S32x128x128 : S32x128x1.Broadcasts S32x128x128
  broadcasts_S32x1x128_S32x128x128 : S32x1x128.Broadcasts S32x128x128
  slices_S32x16x128_o0_1_0_S32x1x128 : S32x16x128.Slices ![0, 1, 0] S32x1x128
  slices_S32x16x128_o0_2_0_S32x1x128 : S32x16x128.Slices ![0, 2, 0] S32x1x128
  slices_S32x16x128_o0_3_0_S32x1x128 : S32x16x128.Slices ![0, 3, 0] S32x1x128
  slices_S32x16x128_o0_4_0_S32x1x128 : S32x16x128.Slices ![0, 4, 0] S32x1x128
  slices_S32x16x128_o0_5_0_S32x1x128 : S32x16x128.Slices ![0, 5, 0] S32x1x128
  slices_S32x16x128_o0_6_0_S32x1x128 : S32x16x128.Slices ![0, 6, 0] S32x1x128
  slices_S32x16x128_o0_7_0_S32x1x128 : S32x16x128.Slices ![0, 7, 0] S32x1x128
  slices_S32x16x128_o0_8_0_S32x1x128 : S32x16x128.Slices ![0, 8, 0] S32x1x128
  slices_S32x16x128_o0_9_0_S32x1x128 : S32x16x128.Slices ![0, 9, 0] S32x1x128
  slices_S32x16x128_o0_10_0_S32x1x128 : S32x16x128.Slices ![0, 10, 0] S32x1x128
  slices_S32x16x128_o0_11_0_S32x1x128 : S32x16x128.Slices ![0, 11, 0] S32x1x128
  slices_S32x16x128_o0_12_0_S32x1x128 : S32x16x128.Slices ![0, 12, 0] S32x1x128
  slices_S32x16x128_o0_13_0_S32x1x128 : S32x16x128.Slices ![0, 13, 0] S32x1x128
  slices_S32x16x128_o0_14_0_S32x1x128 : S32x16x128.Slices ![0, 14, 0] S32x1x128
  slices_S32x16x128_o0_15_0_S32x1x128 : S32x16x128.Slices ![0, 15, 0] S32x1x128
  reduces_S32x128x128_S32x128 : S32x128x128.Reduces [2] S32x128
  transposes_S32x512_S512x32_1_0 : S32x512.Transposes [1, 0] S512x32
  concatenates_S512x512_S512x32_S512x544_d1 : Shape.Concatenates [S512x512, S512x32] S512x544 1
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .bf16 = 32 ∨ (Rect.block (s := S512x512) S512x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x16x128.size a ≤ S32x16x512.size a
  hwx1_0 : ∀ i : grid1.Coords, EltTy.bits .f32 = 32 ∨ (Rect.block (s := S32x16x512) S32x16x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x16x128.size a ≤ S32x16x512.size a
  hwx1_1 : ∀ i : grid1.Coords, EltTy.bits .f32 = 32 ∨ (Rect.block (s := S32x16x512) S32x16x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x128.size a ≤ S32x512.size a
  hwx1_2 : ∀ i : grid1.Coords, EltTy.bits .f32 = 32 ∨ (Rect.block (s := S32x512) S32x128.size (cc1_transform_2 i) (hinb1_2 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_v1) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x512.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S32x16x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S32x16x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S32x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S512x512 : Shape := ⟨2, ![512, 512]⟩
abbrev S512x32x16 : Shape := ⟨3, ![512, 32, 16]⟩
abbrev S512x1x32x16 : Shape := ⟨4, ![512, 1, 32, 16]⟩
abbrev S1x512x32x16 : Shape := ⟨4, ![1, 512, 32, 16]⟩
abbrev S512x512x32x16 : Shape := ⟨4, ![512, 512, 32, 16]⟩
abbrev S_ : Shape := ⟨0, ![]⟩
abbrev S512x512x32 : Shape := ⟨3, ![512, 512, 32]⟩
abbrev S512x32 : Shape := ⟨2, ![512, 32]⟩
abbrev S512x544 : Shape := ⟨2, ![512, 544]⟩

abbrev nBuf : Space → Nat
  | .hbm => 21
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x32x16, .f32⟩
  | .hbm, ⟨2, _⟩ => ⟨S512x512, .f32⟩
  | .hbm, ⟨3, _⟩ => ⟨S512x512, .f32⟩
  | .hbm, ⟨4, _⟩ => ⟨S512x32x16, .f32⟩
  | .hbm, ⟨5, _⟩ => ⟨S512x1x32x16, .f32⟩
  | .hbm, ⟨6, _⟩ => ⟨S1x512x32x16, .f32⟩
  | .hbm, ⟨7, _⟩ => ⟨S512x512x32x16, .f32⟩
  | .hbm, ⟨8, _⟩ => ⟨S512x512x32x16, .f32⟩
  | .hbm, ⟨9, _⟩ => ⟨S512x512x32x16, .f32⟩
  | .hbm, ⟨10, _⟩ => ⟨S512x512x32x16, .f32⟩
  | .hbm, ⟨11, _⟩ => ⟨S_, .f32⟩
  | .hbm, ⟨12, _⟩ => ⟨S512x512x32, .f32⟩
  | .hbm, ⟨13, _⟩ => ⟨S512x512x32, .f32⟩
  | .hbm, ⟨14, _⟩ => ⟨S512x512x32, .f32⟩
  | .hbm, ⟨15, _⟩ => ⟨S_, .f32⟩
  | .hbm, ⟨16, _⟩ => ⟨S512x32, .f32⟩
  | .hbm, ⟨17, _⟩ => ⟨S_, .f32⟩
  | .hbm, ⟨18, _⟩ => ⟨S512x32, .f32⟩
  | .hbm, ⟨19, _⟩ => ⟨S512x32, .f32⟩
  | .hbm, ⟨20, _⟩ => ⟨S512x544, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  shapeCasts_S512x32x16_S512x512 : S512x32x16.ShapeCasts S512x512
  shapeCasts_S512x512_S512x32x16 : S512x512.ShapeCasts S512x32x16
  bcast_S512x32x16_S512x1x32x16_0_2_3 : S512x32x16.BroadcastsInDim S512x1x32x16 (![0, 2, 3] : Fin 3 → Fin S512x1x32x16.rank)
  bcast_S512x32x16_S1x512x32x16_1_2_3 : S512x32x16.BroadcastsInDim S1x512x32x16 (![1, 2, 3] : Fin 3 → Fin S1x512x32x16.rank)
  bcast_S512x1x32x16_S512x512x32x16_0_1_2_3 : S512x1x32x16.BroadcastsInDim S512x512x32x16 (![0, 1, 2, 3] : Fin 4 → Fin S512x512x32x16.rank)
  bcast_S1x512x32x16_S512x512x32x16_0_1_2_3 : S1x512x32x16.BroadcastsInDim S512x512x32x16 (![0, 1, 2, 3] : Fin 4 → Fin S512x512x32x16.rank)
  reducesTo_S512x512x32x16_S512x512x32_d3 : S512x512x32x16.ReducesTo [3] S512x512x32
  h_S_ : 0 < S_.numel
  reducesTo_S512x512x32_S512x32_d1 : S512x512x32.ReducesTo [1] S512x32
  bcast_S_S512x32 : S_.BroadcastsInDim S512x32 (![] : Fin 0 → Fin S512x32.rank)
  concatenates_S512x512_S512x32_S512x544_d1 : Shape.Concatenates [S512x512, S512x32] S512x544 1
  dot_S512x512_S512x512_S512x512_1_0_0_1_n_n_wf : DotDims.WF S512x512 S512x512 S512x512 [1] [0] [0] [1] [] []

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

class Facts : Prop extends Facts₀ where

variable [Facts]
-- ==== Proof.BPairDefs.lean ====
/-
  Names for what one grid point of the pairwise kernel computes, over its payloads: the
  accumulator after a point from the two blocks it loads and the accumulator before it, the
  accumulator's reset value, the result block from the final accumulator, and the product kernel's
  result from its two operands.
-/
import proofs.«181944_j42949672961129_2_alg».proof.Proof.Gen.Kernel.Skeleton

noncomputable section

namespace Cert.Kernel.Pair

open Idealize.ShloMosaic Cert.Kernel Cert.Kernel.Gen

variable {F : FTy → Type} [FloatOps F]

/-- The accumulator after a point: the accumulator before it plus, per (b, r), the sum over the
    128 columns jj of exp (0 - Σ_c |mi(b,c,r) - mj(b,c,jj)|). -/
def accStep (mi mj : Vec F S32x16x128 .f32) (acc : Vec F S32x128 .f32) : Vec F S32x128 .f32 :=
  k1_pay1 (k1_pay4 mi) (k1_pay5 mj)
    (k1_pay11 (k1_pay4 mi) (k1_pay5 mj)
      (k1_pay9 (k1_pay4 mi) (k1_pay5 mj) (k1_pay6 mi mj) (k1_pay7 mj) (k1_pay8 mi)) (k1_pay10 (k1_pay4 mi)))
    (k1_pay12 (k1_pay4 mi)) (k1_pay13 (k1_pay5 mj)) acc

/-- The accumulator's reset value (all zeros). -/
def accZero : Vec F S32x128 .f32 := k1_pay3

/-- The result block from the last accumulator (minus one). -/
def outOf (acc : Vec F S32x128 .f32) : Vec F S32x128 .f32 := k1_pay2 acc

/-- The product kernel's result from its operands. -/
def prod (a b : Vec F S512x512 .bf16) : Vec F S512x512 .f32 := k0_pay1 a b

end Cert.Kernel.Pair

end
-- ==== Proof.BRegion0.lean ====
/-
  The product kernel's region (one grid point): what its windows' blocks are, what its body
  leaves in the result's staging buffer (the product of the two operand blocks), the body's
  triple, the pipeline's proof data at any entry contents V, and the body obligation.
-/
import proofs.«181944_j42949672961129_2_alg».proof.Proof.Gen.Kernel.Launch
import proofs.«181944_j42949672961129_2_alg».proof.Proof.Gen.Kernel.Skeleton
import proofs.«181944_j42949672961129_2_alg».proof.Proof.Gen.Kernel.Points
import proofs.«181944_j42949672961129_2_alg».proof.Proof.BPairDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole [512, 512] rectangle: the one rectangle the body loads and stores through. -/
abbrev r0 : Rect S512x512 := Rect.unit (s := S512x512) ![0, 0] S512x512.size inb_S512x512_S512x512_0_0

/-- The result's staging buffer after the body: its one store, the product of the two loaded blocks. -/
def out0_2 (x0 x1 : Vec F S512x512 .bf16) : Vec F S512x512 .f32 :=
  View.canon [⟨r0, k0_pay1 (View.ld x0 r0) (View.ld x1 r0)⟩]

/-- That store covers the buffer. -/
theorem cover0_2 (p0 : Vec F S512x512 .f32) (y : S512x512.Idx) :
    ∃ pc ∈ ([⟨r0, p0⟩] : List (View.Piece (Elt F) S512x512 .f32)), y ∈ pc.1.set :=
  View.cover_of_tiled [⟨r0, p0⟩] S512x512.size (by rfl) y

set_option maxHeartbeats 1000000 in
/-- The body on whole staging memrefs: the operands' kept, the result's at the product. -/
theorem sound_kernel0 (c : Dev nD) (E : Set ℕ) (i : grid0.Coords)
    (arg1 : Memref sig .tc .vmem S512x512 .bf16) (harg1 : arg1.IsWhole) (arg2 : Memref sig .tc .vmem S512x512 .bf16) (harg2 : arg2.IsWhole)
    (arg3 : Memref sig .tc .vmem S512x512 .f32) (harg3 : arg3.IsWhole)
    (x0 x1 : Vec F S512x512 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the product kernel's pipeline on core c, at entry contents V. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.BRegion1Defs.lean ====
/-
  The pairwise kernel's region (a 4 x 4 grid; the second coordinate j walks the column blocks):
  the body's two branch conditions decided over the grid (reset the accumulator at j = 0, write
  the result block at j = 3), where the result window is idle, the memrefs the body is called on,
  and the region's invariant with the accumulator scratch named.
-/
import proofs.«181944_j42949672961129_2_alg».proof.Proof.Gen.Kernel.Launch
import proofs.«181944_j42949672961129_2_alg».proof.Proof.Gen.Kernel.Skeleton
import proofs.«181944_j42949672961129_2_alg».proof.Proof.Gen.Kernel.Points
import proofs.«181944_j42949672961129_2_alg».proof.Proof.BPairDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's first branch (reset the accumulator): taken when the column-block coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The body's second branch (write the result block): taken when the column-block coordinate is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-- One staging buffer of the result window, through which its contents are stated. -/
abbrev VO1_2 : View sig .tc .vmem S32x128 .f32 := (Memref.whole cc1_stg2_0 : Memref sig .tc .vmem S32x128 .f32).view
abbrev ms1_0 (t : Fin cfg1.N) : Memref sig .tc .vmem S32x16x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S32x16x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S32x128 .f32 := win1_2.stage (cfg1.slots t 2)
abbrev hs1_2 (t : Fin cfg1.N) : (ms1_2 t).IsWhole := hstage1_2 ((cfg1.slots t 2).cast nbuf1_2)
/-- The accumulator scratch, a whole scoped buffer of the kernel's own. -/
abbrev scM1 : Memref sig .tc .vmem S32x128 .f32 := Memref.whole cc1_scratch0
abbrev VS1 : View sig .tc .vmem S32x128 .f32 := scM1.view

/-- The scoped buffers of the core that this region neither stages through nor names: the product
    kernel's three staging buffers, each at some contents. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f))

/-- The region's scoped rest with the scratch as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ d, owns (c : Thread nD τ) scM1 fullShare d)) ∗ (∃ r, prngReg c r)) := by
  unfold Pipeline.ΦA; rw [scopedRest1_eq]; simp only [scM1, owns_whole]; try rfl

end Cert.Kernel.Frame

end
-- ==== Proof.BRegion1RunA.lean ====
/-
  The pairwise kernel's body run once, whole, in the case j = 0 (the accumulator is reset first; the result block is not written): on whole staging memrefs
  holding the two loaded blocks, the body runs to the end leaving the blocks as they were and the
  accumulator scratch (and, where it stores it, the result buffer) with the body's stores written.
-/
import proofs.«181944_j42949672961129_2_alg».proof.Proof.BRegion1Defs

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S32x16x128 .f32) (harg2 : arg2.IsWhole) (arg3 : Memref sig .tc .vmem S32x16x128 .f32) (harg3 : arg3.IsWhole) (arg4 : Memref sig .tc .vmem S32x128 .f32) (harg4 : arg4.IsWhole) (arg5 : Memref sig .tc .vmem S32x128 .f32) (harg5 : arg5.IsWhole) (hc0 : cond1_0 i) (hc1 : ¬cond1_1 i)
    (x0 x1 : Vec F S32x16x128 .f32) :
    Σ' (L2 : List (View.Piece (Elt F) S32x128 .f32)), { LS : List (View.Piece (Elt F) S32x128 .f32) //
      ∀ (xi2 : Vec F S32x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__pairwise_kernel i arg2 harg2 arg3 harg3 arg4 harg4 arg5 harg5) K } := by
  refine ⟨[], ?_, fun xi2 E K => ?run⟩
  case run =>
    simp only [cc1__pairwise_kernel_eq_skeleton]; unfold cc1__pairwise_kernel_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Frame

end
-- ==== Proof.BRegion1RunB.lean ====
/-
  The pairwise kernel's body run once, whole, in the case j = 1 or 2 (the accumulator is carried; the result block is not written): on whole staging memrefs
  holding the two loaded blocks, the body runs to the end leaving the blocks as they were and the
  accumulator scratch (and, where it stores it, the result buffer) with the body's stores written.
-/
import proofs.«181944_j42949672961129_2_alg».proof.Proof.BRegion1Defs

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S32x16x128 .f32) (harg2 : arg2.IsWhole) (arg3 : Memref sig .tc .vmem S32x16x128 .f32) (harg3 : arg3.IsWhole) (arg4 : Memref sig .tc .vmem S32x128 .f32) (harg4 : arg4.IsWhole) (arg5 : Memref sig .tc .vmem S32x128 .f32) (harg5 : arg5.IsWhole) (hc0 : ¬cond1_0 i) (hc1 : ¬cond1_1 i)
    (x0 x1 : Vec F S32x16x128 .f32) (xs : Vec F S32x128 .f32) :
    Σ' (L2 : List (View.Piece (Elt F) S32x128 .f32)), { LS : List (View.Piece (Elt F) S32x128 .f32) //
      ∀ (xi2 : Vec F S32x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__pairwise_kernel i arg2 harg2 arg3 harg3 arg4 harg4 arg5 harg5) K } := by
  refine ⟨[], ?_, fun xi2 E K => ?run⟩
  case run =>
    simp only [cc1__pairwise_kernel_eq_skeleton]; unfold cc1__pairwise_kernel_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Frame

end
-- ==== Proof.BRegion1RunC.lean ====
/-
  The pairwise kernel's body run once, whole, in the case j = 3 (the accumulator is carried; the result block is written from it): on whole staging memrefs
  holding the two loaded blocks, the body runs to the end leaving the blocks as they were and the
  accumulator scratch (and, where it stores it, the result buffer) with the body's stores written.
-/
import proofs.«181944_j42949672961129_2_alg».proof.Proof.BRegion1Defs

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S32x16x128 .f32) (harg2 : arg2.IsWhole) (arg3 : Memref sig .tc .vmem S32x16x128 .f32) (harg3 : arg3.IsWhole) (arg4 : Memref sig .tc .vmem S32x128 .f32) (harg4 : arg4.IsWhole) (arg5 : Memref sig .tc .vmem S32x128 .f32) (harg5 : arg5.IsWhole) (hc0 : ¬cond1_0 i) (hc1 : cond1_1 i)
    (x0 x1 : Vec F S32x16x128 .f32) (xs : Vec F S32x128 .f32) :
    Σ' (L2 : List (View.Piece (Elt F) S32x128 .f32)), { LS : List (View.Piece (Elt F) S32x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc1__pairwise_kernel i arg2 harg2 arg3 harg3 arg4 harg4 arg5 harg5) K } := by
  refine ⟨?_, ?_, fun E K => ?run⟩
  case run =>
    simp only [cc1__pairwise_kernel_eq_skeleton]; unfold cc1__pairwise_kernel_skel
    simp only [k1_part1_eq_skeleton, k1_part2_eq_skeleton, k1_part3_eq_skeleton]
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Frame

end
-- ==== Proof.BRegion1.lean ====
/-
  The pairwise kernel's region: what each case of the body leaves in the accumulator scratch and
  in the result window's staging buffer, what they hold after each grid point (the accumulation
  over the points, by recursion), the region's invariant carrying the accumulator from point to
  point, the pipeline's proof data at any entry contents V, and the body obligation.
-/
import proofs.«181944_j42949672961129_2_alg».proof.Proof.BRegion1RunA
import proofs.«181944_j42949672961129_2_alg».proof.Proof.BRegion1RunB
import proofs.«181944_j42949672961129_2_alg».proof.Proof.BRegion1RunC

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Case A: the stores into the accumulator scratch cover it. -/
theorem scover1_A (c : Dev nD) (i : grid1.Coords) (arg2 : Memref sig .tc .vmem S32x16x128 .f32) (harg2 : arg2.IsWhole) (arg3 : Memref sig .tc .vmem S32x16x128 .f32) (harg3 : arg3.IsWhole) (arg4 : Memref sig .tc .vmem S32x128 .f32) (harg4 : arg4.IsWhole) (arg5 : Memref sig .tc .vmem S32x128 .f32) (harg5 : arg5.IsWhole) (hc0 : cond1_0 i) (hc1 : ¬cond1_1 i)
    (x0 x1 : Vec F S32x16x128 .f32) (y : S32x128.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S32x128.size (by sl_kernel_rfl) y

/-- What case A leaves in the accumulator scratch. -/
def sout1_A (c : Dev nD) (i : grid1.Coords) (arg2 : Memref sig .tc .vmem S32x16x128 .f32) (harg2 : arg2.IsWhole) (arg3 : Memref sig .tc .vmem S32x16x128 .f32) (harg3 : arg3.IsWhole) (arg4 : Memref sig .tc .vmem S32x128 .f32) (harg4 : arg4.IsWhole) (arg5 : Memref sig .tc .vmem S32x128 .f32) (harg5 : arg5.IsWhole) (hc0 : cond1_0 i) (hc1 : ¬cond1_1 i)
    (x0 x1 : Vec F S32x16x128 .f32) : Vec F S32x128 .f32 :=
  VS1.read (Elt F) (VS1.writes (Elt F) VS1.junk (kernelRun1_A c i arg2 harg2 arg3 harg3 arg4 harg4 arg5 harg5 hc0 hc1 x0 x1).2.1)

/-- What case A leaves in the result window's staging buffer (nothing is stored: a placeholder no one reads). -/
def out1_A_2 (c : Dev nD) (i : grid1.Coords) (arg2 : Memref sig .tc .vmem S32x16x128 .f32) (harg2 : arg2.IsWhole) (arg3 : Memref sig .tc .vmem S32x16x128 .f32) (harg3 : arg3.IsWhole) (arg4 : Memref sig .tc .vmem S32x128 .f32) (harg4 : arg4.IsWhole) (arg5 : Memref sig .tc .vmem S32x128 .f32) (harg5 : arg5.IsWhole) (hc0 : cond1_0 i) (hc1 : ¬cond1_1 i)
    (x0 x1 : Vec F S32x16x128 .f32) : Vec F S32x128 .f32 :=
  VO1_2.read (Elt F) (VO1_2.writes (Elt F) VO1_2.junk (kernelRun1_A c i arg2 harg2 arg3 harg3 arg4 harg4 arg5 harg5 hc0 hc1 x0 x1).1)

/-- Case B: the stores into the accumulator scratch cover it. -/
theorem scover1_B (c : Dev nD) (i : grid1.Coords) (arg2 : Memref sig .tc .vmem S32x16x128 .f32) (harg2 : arg2.IsWhole) (arg3 : Memref sig .tc .vmem S32x16x128 .f32) (harg3 : arg3.IsWhole) (arg4 : Memref sig .tc .vmem S32x128 .f32) (harg4 : arg4.IsWhole) (arg5 : Memref sig .tc .vmem S32x128 .f32) (harg5 : arg5.IsWhole) (hc0 : ¬cond1_0 i) (hc1 : ¬cond1_1 i)
    (x0 x1 : Vec F S32x16x128 .f32) (xs : Vec F S32x128 .f32) (y : S32x128.Idx) :
    ∃ pc ∈ (kernelRun1_B c i arg2 harg2 arg3 harg3 arg4 harg4 arg5 harg5 hc0 hc1 x0 x1 xs).2.1, y ∈ pc.1.set :=
  View.cover_of_tiledL (kernelRun1_B c i arg2 harg2 arg3 harg3 arg4 harg4 arg5 harg5 hc0 hc1 x0 x1 xs).2.1 S32x128.size (by sl_kernel_rfl) y

/-- What case B leaves in the accumulator scratch. -/
def sout1_B (c : Dev nD) (i : grid1.Coords) (arg2 : Memref sig .tc .vmem S32x16x128 .f32) (harg2 : arg2.IsWhole) (arg3 : Memref sig .tc .vmem S32x16x128 .f32) (harg3 : arg3.IsWhole) (arg4 : Memref sig .tc .vmem S32x128 .f32) (harg4 : arg4.IsWhole) (arg5 : Memref sig .tc .vmem S32x128 .f32) (harg5 : arg5.IsWhole) (hc0 : ¬cond1_0 i) (hc1 : ¬cond1_1 i)
    (x0 x1 : Vec F S32x16x128 .f32) (xs : Vec F S32x128 .f32) : Vec F S32x128 .f32 :=
  VS1.read (Elt F) (VS1.writes (Elt F) VS1.junk (kernelRun1_B c i arg2 harg2 arg3 harg3 arg4 harg4 arg5 harg5 hc0 hc1 x0 x1 xs).2.1)

/-- What case B leaves in the result window's staging buffer (nothing is stored: a placeholder no one reads). -/
def out1_B_2 (c : Dev nD) (i : grid1.Coords) (arg2 : Memref sig .tc .vmem S32x16x128 .f32) (harg2 : arg2.IsWhole) (arg3 : Memref sig .tc .vmem S32x16x128 .f32) (harg3 : arg3.IsWhole) (arg4 : Memref sig .tc .vmem S32x128 .f32) (harg4 : arg4.IsWhole) (arg5 : Memref sig .tc .vmem S32x128 .f32) (harg5 : arg5.IsWhole) (hc0 : ¬cond1_0 i) (hc1 : ¬cond1_1 i)
    (x0 x1 : Vec F S32x16x128 .f32) (xs : Vec F S32x128 .f32) : Vec F S32x128 .f32 :=
  VO1_2.read (Elt F) (VO1_2.writes (Elt F) VO1_2.junk (kernelRun1_B c i arg2 harg2 arg3 harg3 arg4 harg4 arg5 harg5 hc0 hc1 x0 x1 xs).1)

/-- Case C: the stores into the accumulator scratch cover it. -/
theorem scover1_C (c : Dev nD) (i : grid1.Coords) (arg2 : Memref sig .tc .vmem S32x16x128 .f32) (harg2 : arg2.IsWhole) (arg3 : Memref sig .tc .vmem S32x16x128 .f32) (harg3 : arg3.IsWhole) (arg4 : Memref sig .tc .vmem S32x128 .f32) (harg4 : arg4.IsWhole) (arg5 : Memref sig .tc .vmem S32x128 .f32) (harg5 : arg5.IsWhole) (hc0 : ¬cond1_0 i) (hc1 : cond1_1 i)
    (x0 x1 : Vec F S32x16x128 .f32) (xs : Vec F S32x128 .f32) (y : S32x128.Idx) :
    ∃ pc ∈ (kernelRun1_C c i arg2 harg2 arg3 harg3 arg4 harg4 arg5 harg5 hc0 hc1 x0 x1 xs).2.1, y ∈ pc.1.set :=
  View.cover_of_tiledL (kernelRun1_C c i arg2 harg2 arg3 harg3 arg4 harg4 arg5 harg5 hc0 hc1 x0 x1 xs).2.1 S32x128.size (by sl_kernel_rfl) y

/-- What case C leaves in the accumulator scratch. -/
def sout1_C (c : Dev nD) (i : grid1.Coords) (arg2 : Memref sig .tc .vmem S32x16x128 .f32) (harg2 : arg2.IsWhole) (arg3 : Memref sig .tc .vmem S32x16x128 .f32) (harg3 : arg3.IsWhole) (arg4 : Memref sig .tc .vmem S32x128 .f32) (harg4 : arg4.IsWhole) (arg5 : Memref sig .tc .vmem S32x128 .f32) (harg5 : arg5.IsWhole) (hc0 : ¬cond1_0 i) (hc1 : cond1_1 i)
    (x0 x1 : Vec F S32x16x128 .f32) (xs : Vec F S32x128 .f32) : Vec F S32x128 .f32 :=
  VS1.read (Elt F) (VS1.writes (Elt F) VS1.junk (kernelRun1_C c i arg2 harg2 arg3 harg3 arg4 harg4 arg5 harg5 hc0 hc1 x0 x1 xs).2.1)

/-- Case C: the stores into the result buffer cover it. -/
theorem cover1_C_2 (c : Dev nD) (i : grid1.Coords) (arg2 : Memref sig .tc .vmem S32x16x128 .f32) (harg2 : arg2.IsWhole) (arg3 : Memref sig .tc .vmem S32x16x128 .f32) (harg3 : arg3.IsWhole) (arg4 : Memref sig .tc .vmem S32x128 .f32) (harg4 : arg4.IsWhole) (arg5 : Memref sig .tc .vmem S32x128 .f32) (harg5 : arg5.IsWhole) (hc0 : ¬cond1_0 i) (hc1 : cond1_1 i)
    (x0 x1 : Vec F S32x16x128 .f32) (xs : Vec F S32x128 .f32) (y : S32x128.Idx) :
    ∃ pc ∈ (kernelRun1_C c i arg2 harg2 arg3 harg3 arg4 harg4 arg5 harg5 hc0 hc1 x0 x1 xs).1, y ∈ pc.1.set :=
  View.cover_of_tiledL (kernelRun1_C c i arg2 harg2 arg3 harg3 arg4 harg4 arg5 harg5 hc0 hc1 x0 x1 xs).1 S32x128.size (by sl_kernel_rfl) y

/-- What case C leaves in the result window's staging buffer. -/
def out1_C_2 (c : Dev nD) (i : grid1.Coords) (arg2 : Memref sig .tc .vmem S32x16x128 .f32) (harg2 : arg2.IsWhole) (arg3 : Memref sig .tc .vmem S32x16x128 .f32) (harg3 : arg3.IsWhole) (arg4 : Memref sig .tc .vmem S32x128 .f32) (harg4 : arg4.IsWhole) (arg5 : Memref sig .tc .vmem S32x128 .f32) (harg5 : arg5.IsWhole) (hc0 : ¬cond1_0 i) (hc1 : cond1_1 i)
    (x0 x1 : Vec F S32x16x128 .f32) (xs : Vec F S32x128 .f32) : Vec F S32x128 .f32 :=
  VO1_2.read (Elt F) (VO1_2.writes (Elt F) VO1_2.junk (kernelRun1_C c i arg2 harg2 arg3 harg3 arg4 harg4 arg5 harg5 hc0 hc1 x0 x1 xs).1)

/-- THE ACCUMULATION: what the result window's staging buffer and the accumulator scratch hold after
    the body at position n: the case the point is in, run on the point's blocks, over the accumulator
    the point before left. -/
def outsAt1 (c : Dev nD) : (n : ℕ) → n < cfg1.N → Vec F S32x128 .f32 × Vec F S32x128 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_2 c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t), sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_2 c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_2 c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: at the first point the scoped rest as the launch hands
    it; afterwards the same with the accumulator scratch at what the point before left. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ owns (c : Thread nD τ) scM1 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ owns (c : Thread nD τ) scM1 fullShare ((outsAt1 V c (n - 1) (by omega)).2)) ∗ (∃ r, prngReg c r)) := by
  cases n with
  | zero => exact absurd rfl hz
  | succ n => rfl

/-- The proof data of the pairwise kernel's pipeline on core c, at entry contents V: the two input
    windows hold the one array they share at the two halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the closed forms say which case the
    point is in; the invariant hands the body the accumulator at what the point before left (at anything
    at the first point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2 t (fun h => h1 ((hcond1_1 t).mp h))) (noFlush1_2 t (fun h => h1 ((hcond1_1 t).mp h)))]
      rw [outsAt1_A V c t h0 h1]
      unfold sout1_A; (try dsimp only)
      by_cases hz : t.val = 0
      · rw [PhiS1_castSucc V c t, PhiS1_zero V c _ _ hz, PhiA1_eq]
        iintro ⟨⟨⟨Ha, Hb, Hc, HS⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS]; · iexact HS
        iintro ⟨H0, H1, H2, ⟨%es, HS⟩⟩
        isplitl [Ha Hb Hc HS Hg]
        · isplitl [Ha Hb Hc HS]
          · isplitl [Ha]; · iexact Ha
            isplitl [Hb]; · iexact Hb
            isplitl [Hc]; · iexact Hc
            unfold owns; iexists _; isplitr
            swap; · iexact HS
            ipureintro; exact View.read_writes_of_cover _ _ _ _ _ (scover1_A c _ _ _ _ _ _ _ _ _ _ _ _ _)
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨Ha, Hb, Hc, HS⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS]; · iexists _; iexact HS
        iintro ⟨H0, H1, H2, ⟨%es, HS⟩⟩
        isplitl [Ha Hb Hc HS Hg]
        · isplitl [Ha Hb Hc HS]
          · isplitl [Ha]; · iexact Ha
            isplitl [Hb]; · iexact Hb
            isplitl [Hc]; · iexact Hc
            unfold owns; iexists _; isplitr
            swap; · iexact HS
            ipureintro; exact View.read_writes_of_cover _ _ _ _ _ (scover1_A c _ _ _ _ _ _ _ _ _ _ _ _ _)
          iexact Hg
        isplitl [Ho]; · iexact Ho
        isplitl [H0]; · iexact H0
        isplitl [H1]; · iexact H1
        iexists _; iexact H2
  · have hz : t.val ≠ 0 := fun hz => h0 (by rw [hz])
    by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_2 sout1_C; (try dsimp only)
      rw [PhiS1_castSucc V c t, PhiS1_pos V c _ _ hz]
      iintro ⟨⟨⟨Ha, Hb, Hc, HS⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [Ha Hb Hc HS Hg]
      · isplitl [Ha Hb Hc HS]
        · isplitl [Ha]; · iexact Ha
          isplitl [Hb]; · iexact Hb
          isplitl [Hc]; · iexact Hc
          unfold owns; iexists _; isplitr
          swap; · iexact HS
          ipureintro; exact View.read_writes_of_cover _ _ _ _ _ (scover1_C c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B; (try dsimp only)
      rw [PhiS1_castSucc V c t, PhiS1_pos V c _ _ hz]
      iintro ⟨⟨⟨Ha, Hb, Hc, HS⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [Ha Hb Hc HS Hg]
      · isplitl [Ha Hb Hc HS]
        · isplitl [Ha]; · iexact Ha
          isplitl [Hb]; · iexact Hb
          isplitl [Hc]; · iexact Hc
          unfold owns; iexists _; isplitr
          swap; · iexact HS
          ipureintro; exact View.read_writes_of_cover _ _ _ _ _ (scover1_B c _ _ _ _ _ _ _ _ _ _ _ _ _ _)
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped rest back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 16 := N_1; omega), PhiA1_eq]
  iintro ⟨⟨Ha, Hb, Hc, HS⟩, Hg⟩
  isplitl [Ha Hb Hc HS]
  · isplitl [Ha]; · iexact Ha
    isplitl [Hb]; · iexact Hb
    isplitl [Hc]; · iexact Hc
    iexists _; iexact HS
  iexact Hg

end Cert.Kernel.Frame

end
-- ==== Proof.BShares.lean ====
/-
  The share bookkeeping of the pairwise region. Its two input windows read blocks of one array,
  the transposed features [32, 16, 512]; its output window writes the result [32, 512]. At entry the
  core holds each of the two buffers whole, at the full share. The region's windows hold, window by
  window, window 0 the first array at the left half of the full share, window 1 the same array at
  the right half, window 2 the second array at the full share. The two halves are disjoint and add
  up to the full share, and a points-to at a sum of shares is the separating conjunction of the
  points-tos at the summands, at the same contents. Hence the entry resources split into the
  windows' (arrays_split1) and the windows' join back into the exit resources (arrays_join1).
-/
import proofs.«181944_j42949672961129_2_alg».proof.Proof.Gen.Kernel.Launch
import Idealize.ShloMosaic.Lib.Pipeline.Regions

noncomputable section

namespace Cert.Kernel.Shares

open Idealize.ShloMosaic Idealize.ShloMosaic.TcCoe
open Idealize.SL Idealize.SL.RA Idealize.SL.BI
open scoped Idealize.SL.BI
open Idealize.SL.BI.BIBase Idealize.SL.Sem
open Cert.Kernel Cert.Kernel.Gen
open PCS

variable {Ix : Type} [DecidableEq Ix] {Val : EltTy → Type} {Name : Type} [DecidableEq Name] {U : Type} [URA U] {Lvl : Type}

/-- The left half of the full share: what window 0 holds of the shared array. -/
def qL : PosShare TreeShare := fullShare.left
/-- The right half of the full share: what window 1 holds of the shared array. -/
def qR : PosShare TreeShare := fullShare.right

/-- The two halves are disjoint and their sum is the full share. -/
theorem full_mem : fullShare ∈ qL ·? qR := PosShare.mem_left_op_right fullShare

/-- The three windows stand on two buffers. -/
theorem arrRef_image : Finset.univ.image (Pipeline.arrRef spec1) = {main_v5, main_v6} := by decide

/-- The distinct buffers behind the windows' arrays, each whole at the full share, one by one. -/
theorem arrBufs1_eq (c : Dev nD) (V : (b : Ref sig .tc) → Buf Val ((c : Thread nD τ).loc b)) :
    (Pipeline.arrBufs (Ix := Ix) (Name := Name) (U := U) (Lvl := Lvl) spec1 c V : sProp (MT nD τ sig Ix Val Name U Lvl))
      = iprop((((c : Thread nD τ).loc main_v5) ↦{fullShare} V main_v5) ∗ (((c : Thread nD τ).loc main_v6) ↦{fullShare} V main_v6)) := by
  unfold Pipeline.arrBufs
  exact bigSep_eq_bigSepL_of_eq [main_v5, main_v6] (by decide) (by decide) _

/-- The windows' arrays one by one: every array is a whole buffer; the two inputs are held at the
    two halves, the output at the full share. -/
theorem arrays1_eq (c : Dev nD) (dat : Pipeline.Dat τ Val Ix Name U Lvl cfg1 c)
    (hq0 : dat.q 0 = qL) (hq1 : dat.q 1 = qR)
    (F' : (w : Fin cfg1.W) → Buf Val ((cfg1.win w).arr.view.loc (c : Thread nD τ))) :
    (dat.arrays F' : sProp (MT nD τ sig Ix Val Name U Lvl))
      = iprop((((c : Thread nD τ).loc main_v5) ↦{qL} F' 0) ∗ (((c : Thread nD τ).loc main_v5) ↦{qR} F' 1)
          ∗ (((c : Thread nD τ).loc main_v6) ↦{fullShare} F' 2)) := by
  have hs0 : dat.share 0 = qL := (show dat.share 0 = dat.q 0 from rfl).trans hq0
  have hs1 : dat.share 1 = qR := (show dat.share 1 = dat.q 1 from rfl).trans hq1
  have hs2 : dat.share 2 = fullShare := rfl
  unfold Pipeline.Dat.arrays
  -- windows 0 and 1 stand on the same whole buffer: one rewriting of its element set serves both
  rw [Gen.bigSep_W1, (Gen.arr_whole1 0).set_eq_univ, (Gen.arr_whole1 2).set_eq_univ, hs0, hs1, hs2]

/-- Entry: the two buffers whole at the full share, at contents V, give the windows' arrays at the
    same contents — the shared buffer's full share splits into its two halves. -/
theorem arrays_split1 (c : Dev nD) (dat : Pipeline.Dat τ Val Ix Name U Lvl cfg1 c)
    (hq0 : dat.q 0 = qL) (hq1 : dat.q 1 = qR)
    (V : (b : Ref sig .tc) → Buf Val ((c : Thread nD τ).loc b))
    (F' : (w : Fin cfg1.W) → Buf Val ((cfg1.win w).arr.view.loc (c : Thread nD τ)))
    (hF : ∀ w, F' w = V (Pipeline.arrRef spec1 w)) :
    (Pipeline.arrBufs spec1 c V : sProp (MT nD τ sig Ix Val Name U Lvl)) ⊢ dat.arrays F' := by
  rw [arrBufs1_eq, arrays1_eq c dat hq0 hq1, hF 0, hF 1, hF 2]
  exact (BI.sep_mono (pointsTo_share full_mem).1 (.refl _)).trans BI.sep_assoc

/-- Exit: the windows' arrays at contents that come from one V' (in particular windows 0 and 1 at
    the same contents) give the two buffers whole at the full share at V' — the two halves of the
    shared buffer join into its full share. -/
theorem arrays_join1 (c : Dev nD) (dat : Pipeline.Dat τ Val Ix Name U Lvl cfg1 c)
    (hq0 : dat.q 0 = qL) (hq1 : dat.q 1 = qR)
    (V' : (b : Ref sig .tc) → Buf Val ((c : Thread nD τ).loc b))
    (F' : (w : Fin cfg1.W) → Buf Val ((cfg1.win w).arr.view.loc (c : Thread nD τ)))
    (hF : ∀ w, F' w = V' (Pipeline.arrRef spec1 w)) :
    dat.arrays F' ⊢ (Pipeline.arrBufs spec1 c V' : sProp (MT nD τ sig Ix Val Name U Lvl)) := by
  rw [arrBufs1_eq, arrays1_eq c dat hq0 hq1, hF 0, hF 1, hF 2]
  exact BI.sep_assoc'.trans (BI.sep_mono (pointsTo_share full_mem).2 (.refl _))

end Cert.Kernel.Shares

end
-- ==== Proof.BRun.lean ====
/-
  THE RUN: @main as five segments — the host lines before the product kernel, its region, the reshape
  and transpose between the kernels, the pairwise kernel's region, the transpose and join after it —
  with the buffers' contents named at every boundary (a fold from the launch memory: a host stretch
  applies its operations, a region leaves its result array at what its write-backs fold to), and the
  launch: every weakly fair execution terminates with every unscoped buffer at the last boundary's
  contents.
-/
import proofs.«181944_j42949672961129_2_alg».proof.Proof.BRegion0
import proofs.«181944_j42949672961129_2_alg».proof.Proof.BRegion1
import proofs.«181944_j42949672961129_2_alg».proof.Proof.BShares
import proofs.«181944_j42949672961129_2_alg».proof.Proof.Gen.Kernel.Regions

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => m (c, b)
/-- After the first host stretch (the product kernel's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the product kernel's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the pairwise kernel's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the pairwise kernel's exit: its result array at what the pipeline leaves, every other buffer as entered. -/
def W4 (c : Dev nD) : Valuation τ sig (Elt F) :=
  Function.update (W3 m c) (Proc.devRef .tc main_v6) ((dat1 (V3 m) c).arrAt 2 cfg1.N)
abbrev V4 : (c : Dev nD) → (b : Ref sig .tc) → Buf (Elt F) ((c : Thread nD τ).loc b) := fun c b => W4 m c b
theorem W4_v6 (c : Dev nD) : V4 m c main_v6 = (dat1 (V3 m) c).arrAt 2 cfg1.N := by
  show W4 m c (Proc.devRef .tc main_v6) = _
  unfold W4; exact Function.update_self ..
theorem W4_of_ne (c : Dev nD) (b : Ref sig .tc) (hb : b ≠ main_v6) : V4 m c b = V3 m c b := by
  show W4 m c (Proc.devRef .tc b) = W3 m c (Proc.devRef .tc b)
  unfold W4; exact Function.update_of_ne (StableHlo.devRef_ne_of_ne hb) ..
/-- After the last host stretch. -/
abbrev W5 : Dev nD → Valuation τ sig (Elt F) := fun c => StableHlo.after hostOps2 (W4 m c)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the
    core owing nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- The product kernel's region: entered from every unscoped buffer at W1, left at W2. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pairwise kernel's region: entered from every unscoped buffer at W3, left at W4. Its two input
    windows read one array: the array's full share is dealt to them as its two halves at the entry and
    joined again at the exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hub : (StableHlo.held (c : Thread nD τ) (Pipeline.ucRefs τ sig) (W3 m c) : sProp 𝕄)
        = iprop(Pipeline.arrBufs spec1 c (V3 m c) ∗ Pipeline.unscopedRest spec1 c (V3 m c)) := by
      rw [← Pipeline.unscopedBufs_held c (W3 m c)]
      exact Pipeline.unscopedBufs_split₀ (Pipeline.pin (pcfgs (F := F)) adm) (1 : Fin 2) winFacts₀1.arr_unscoped c (V3 m c)
    have hsp := Shares.arrays_split1 (Ix := Unit) (Name := ℕ) (U := UR sig nD τ) (Lvl := ℕ) c (pdats m 1 c) rfl rfl (V3 m c)
      ((pdats m 1 c).arrAt · 0) (fun w => A_eq1 (V3 m) c w)
    rw [hub]
    iintro ⟨⟨⟨Hab, Hrest⟩, Hp, HO⟩, -, -⟩
    ihave Ha := hsp $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V3 m) c).Φ 0 from rfl]
    refine BIBase.Entails.trans ?_ (hin1 (V3 m) c)
    unfold Pipeline.ΦA
    iintro ⟨Hp, -, Hr⟩
    isplitl [Hr]; · iexact Hr
    iexact Hp
  hout c := by
    rw [Pipeline.ownSems0_none, show (pdats m 1 c).Φ (Fin.last _) = (dat1 (V3 m) c).Φ (Fin.last cfg1.N) from rfl]
    refine (hout1 (V3 m) c).trans ?_
    unfold Pipeline.ΦA
    iintro ⟨Hr, Hp⟩
    isplitl [Hp]; · iexact Hp
    isplitr; · iempintro
    iexact Hr
  hexit c := by
    have hub : (StableHlo.held (c : Thread nD τ) (Pipeline.ucRefs τ sig) (W4 m c) : sProp 𝕄)
        = iprop(Pipeline.arrBufs spec1 c (V4 m c) ∗ Pipeline.unscopedRest spec1 c (V4 m c)) := by
      rw [← Pipeline.unscopedBufs_held c (W4 m c)]
      exact Pipeline.unscopedBufs_split₀ (Pipeline.pin (pcfgs (F := F)) adm) (1 : Fin 2) winFacts₀1.arr_unscoped c (V4 m c)
    have hrest : (Pipeline.unscopedRest (Ix := Unit) (Name := ℕ) (U := UR sig nD τ) (Lvl := ℕ) spec1 c (V4 m c) : sProp 𝕄)
        = Pipeline.unscopedRest spec1 c (V3 m c) := by
      unfold Pipeline.unscopedRest
      exact bigSep_congr fun b hb => by
        rw [W4_of_ne m c b (fun e => (Finset.mem_sdiff.mp hb).2 (by
          rw [Shares.arrRef_image, e]; exact Finset.mem_insert_of_mem (Finset.mem_singleton_self _)))]
    have hjoin := Shares.arrays_join1 (Ix := Unit) (Name := ℕ) (U := UR sig nD τ) (Lvl := ℕ) c (pdats m 1 c) rfl rfl (V4 m c)
      ((pdats m 1 c).arrAt · cfg1.N) (fun w => match w with
        | ⟨0, _⟩ => ((pdats m 1 c).arrAt_in 0 rfl _).trans ((A_eq1 (V3 m) c 0).trans (W4_of_ne m c main_v5 (by decide)).symm)
        | ⟨1, _⟩ => ((pdats m 1 c).arrAt_in 1 rfl _).trans ((A_eq1 (V3 m) c 1).trans (W4_of_ne m c main_v5 (by decide)).symm)
        | ⟨2, _⟩ => (W4_v6 m c).symm)
    rw [hub, hrest]
    iintro ⟨Ha, HO, HY, Hrest⟩
    imodintro
    isplitl [Ha Hrest]
    · isplitl [Ha]; · iapply hjoin; iexact Ha
      iexact Hrest
    isplitl [HY]; · iexact HY
    unfold Pipeline.Dat.owesAt Pipeline.owesWithin
    icases HO with ⟨%W, -, HO⟩; iexists W; iexact HO

/-! ## @main as segments, and the launch -/

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor

/-- @main's five segments in order. -/
abbrev segs : List (Pipeline.Seg (pcfgs (F := F)) adm (pdats m) () defs₀ 𝒱₀ L lv) :=
  [ .host (hseg hostOps0 hostOps0_sub hostOps0_fresh' (W0 m)),
    .region (reg0 m),
    .host (hseg hostOps1 hostOps1_sub hostOps1_fresh' (W2 m)),
    .region (reg1 m),
    .host (hseg hostOps2 hostOps2_sub hostOps2_fresh' (W4 m)) ]

theorem main_run (c : Dev nD) : main (F := F) c = Pipeline.Seg.run (segs m) := (main_chain c).trans (by chain_rfl)

set_option backward.isDefEq.respectTransparency.types false in
/-- THE RUN: from any memory with zero counters every weakly fair execution of @main on the TensorCores
    terminates, nothing faulting, and every final state has every unscoped buffer at the last boundary's
    contents W5. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show (iprop(StableHlo.held (c : Thread nD τ) (Pipeline.ucRefs τ sig) (W5 m c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.Kernel.Frame

end
-- ==== Proof.BHostStages.lean ====
/-
  The host stretches read: each argument array reaches the end as launched (no host line and no
  region writes it), and the buffers the host lines write hold the lines' operations of what they
  read — the two casts and the reshape before the product kernel, the reshape and transpose between
  the kernels, the transpose and the join after the pairwise kernel.
-/
import proofs.«181944_j42949672961129_2_alg».proof.Proof.BRun
import Idealize.ShloMosaic.Lib.StableHlo.Run

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

theorem W5_main_arg0 (c : Dev nD) : W5 m c (Proc.devRef .tc main_arg0) = m ((c : Thread nD τ).loc main_arg0) :=
  (StableHlo.after_of_writes_sub hostOps2 (W4 m c) hostOps2_writes (by decide : main_arg0 ∉ hostOps2_W)).trans <|
  (W4_of_ne m c main_arg0 (by decide)).trans <|
  (StableHlo.after_of_writes_sub hostOps1 (W2 m c) hostOps1_writes (by decide : main_arg0 ∉ hostOps1_W)).trans <|
  (W2_of_ne m c main_arg0 (by decide)).trans <|
  (StableHlo.after_of_writes_sub hostOps0 (W0 m c) hostOps0_writes (by decide : main_arg0 ∉ hostOps0_W)).trans rfl

theorem W5_main_arg1 (c : Dev nD) : W5 m c (Proc.devRef .tc main_arg1) = m ((c : Thread nD τ).loc main_arg1) :=
  (StableHlo.after_of_writes_sub hostOps2 (W4 m c) hostOps2_writes (by decide : main_arg1 ∉ hostOps2_W)).trans <|
  (W4_of_ne m c main_arg1 (by decide)).trans <|
  (StableHlo.after_of_writes_sub hostOps1 (W2 m c) hostOps1_writes (by decide : main_arg1 ∉ hostOps1_W)).trans <|
  (W2_of_ne m c main_arg1 (by decide)).trans <|
  (StableHlo.after_of_writes_sub hostOps0 (W0 m c) hostOps0_writes (by decide : main_arg1 ∉ hostOps0_W)).trans rfl

/-- The first argument is still as launched when the last host stretch joins it to the result. -/
theorem W4_main_arg0 (c : Dev nD) : W4 m c (Proc.devRef .tc main_arg0) = m ((c : Thread nD τ).loc main_arg0) :=
  (W4_of_ne m c main_arg0 (by decide)).trans <|
  (StableHlo.after_of_writes_sub hostOps1 (W2 m c) hostOps1_writes (by decide : main_arg0 ∉ hostOps1_W)).trans <|
  (W2_of_ne m c main_arg0 (by decide)).trans <|
  (StableHlo.after_of_writes_sub hostOps0 (W0 m c) hostOps0_writes (by decide : main_arg0 ∉ hostOps0_W)).trans rfl

/-- The product kernel's first operand: the first argument, cast. -/
theorem V1_v1 (c : Dev nD) : V1 m c main_v1 = truncf .bf16 (m ((c : Thread nD τ).loc main_arg0)) bitsLt_bf16_f32 := by
  show StableHlo.after hostOps0 (fun b => m (c, b)) (Proc.devRef .tc main_v1) = _
  after_results <;> rfl

/-- Its second operand: the second argument flattened to [512, 512], cast. -/
theorem V1_v2 (c : Dev nD) : V1 m c main_v2
    = truncf .bf16 (shapeCast S512x512 (m ((c : Thread nD τ).loc main_arg1)) shapeCasts_S512x32x16_S512x512) bitsLt_bf16_f32 := by
  show StableHlo.after hostOps0 (fun b => m (c, b)) (Proc.devRef .tc main_v2) = _
  after_results <;> rfl

/-- The pairwise kernel's operand: the product reshaped to [512, 32, 16] and transposed to [32, 16, 512]. -/
theorem V3_v5 (c : Dev nD) : V3 m c main_v5
    = transpose S32x16x512 [1, 2, 0] (shapeCast S512x32x16 (V2 m c main_v3) shapeCasts_S512x512_S512x32x16) transposes_S512x32x16_S32x16x512_1_2_0 := by
  show StableHlo.after hostOps1 (W2 m c) (Proc.devRef .tc main_v5) = _
  after_results <;> rfl

/-- The result: the first argument joined with the transposed statistic. -/
theorem W5_v8 (c : Dev nD) : W5 m c (Proc.devRef .tc main_v8)
    = concatenate S512x544 1 [⟨S512x512, W4 m c (Proc.devRef .tc main_arg0)⟩,
        ⟨S512x32, transpose S512x32 [1, 0] (W4 m c (Proc.devRef .tc main_v6)) transposes_S32x512_S512x32_1_0⟩] concatenates_S512x512_S512x32_S512x544_d1 := by
  show StableHlo.after hostOps2 (W4 m c) (Proc.devRef .tc main_v8) = _
  after_results <;> rfl

end Cert.Kernel.Frame

end
-- ==== Proof.PairDefs.lean ====
/-
  Names for what one grid point of the pairwise kernel computes, over its payloads: the
  accumulator after a point from the two blocks it loads and the accumulator before it, the
  accumulator's reset value, the result block from the final accumulator, and the product kernel's
  result from its two operands.
-/
import proofs.«181944_j42949672961129_2_alg».proof.Proof.Gen.KernelIdeal.Skeleton

noncomputable section

namespace Cert.KernelIdeal.Pair

open Idealize.ShloMosaic Cert.KernelIdeal Cert.KernelIdeal.Gen

variable {F : FTy → Type} [FloatOps F]

/-- The accumulator after a point: the accumulator before it plus, per (b, r), the sum over the
    128 columns jj of exp (0 - Σ_c |mi(b,c,r) - mj(b,c,jj)|). -/
def accStep (mi mj : Vec F S32x16x128 .f32) (acc : Vec F S32x128 .f32) : Vec F S32x128 .f32 :=
  k1_pay1 (k1_pay4 mi) (k1_pay5 mj)
    (k1_pay11 (k1_pay4 mi) (k1_pay5 mj)
      (k1_pay9 (k1_pay4 mi) (k1_pay5 mj) (k1_pay6 mi mj) (k1_pay7 mj) (k1_pay8 mi)) (k1_pay10 (k1_pay4 mi)))
    (k1_pay12 (k1_pay4 mi)) (k1_pay13 (k1_pay5 mj)) acc

/-- The accumulator's reset value (all zeros). -/
def accZero : Vec F S32x128 .f32 := k1_pay3

/-- The result block from the last accumulator (minus one). -/
def outOf (acc : Vec F S32x128 .f32) : Vec F S32x128 .f32 := k1_pay2 acc

/-- The product kernel's result from its operands. -/
def prod (a b : Vec F S512x512 .bf16) : Vec F S512x512 .f32 := k0_pay1 a b

end Cert.KernelIdeal.Pair

end
-- ==== Proof.Region0.lean ====
/-
  The product kernel's region (one grid point): what its windows' blocks are, what its body
  leaves in the result's staging buffer (the product of the two operand blocks), the body's
  triple, the pipeline's proof data at any entry contents V, and the body obligation.
-/
import proofs.«181944_j42949672961129_2_alg».proof.Proof.Gen.KernelIdeal.Launch
import proofs.«181944_j42949672961129_2_alg».proof.Proof.Gen.KernelIdeal.Skeleton
import proofs.«181944_j42949672961129_2_alg».proof.Proof.Gen.KernelIdeal.Points
import proofs.«181944_j42949672961129_2_alg».proof.Proof.PairDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole [512, 512] rectangle: the one rectangle the body loads and stores through. -/
abbrev r0 : Rect S512x512 := Rect.unit (s := S512x512) ![0, 0] S512x512.size inb_S512x512_S512x512_0_0

/-- The result's staging buffer after the body: its one store, the product of the two loaded blocks. -/
def out0_2 (x0 x1 : Vec F S512x512 .bf16) : Vec F S512x512 .f32 :=
  View.canon [⟨r0, k0_pay1 (View.ld x0 r0) (View.ld x1 r0)⟩]

/-- That store covers the buffer. -/
theorem cover0_2 (p0 : Vec F S512x512 .f32) (y : S512x512.Idx) :
    ∃ pc ∈ ([⟨r0, p0⟩] : List (View.Piece (Elt F) S512x512 .f32)), y ∈ pc.1.set :=
  View.cover_of_tiled [⟨r0, p0⟩] S512x512.size (by rfl) y

set_option maxHeartbeats 1000000 in
/-- The body on whole staging memrefs: the operands' kept, the result's at the product. -/
theorem sound_kernel0 (c : Dev nD) (E : Set ℕ) (i : grid0.Coords)
    (arg1 : Memref sig .tc .vmem S512x512 .bf16) (harg1 : arg1.IsWhole) (arg2 : Memref sig .tc .vmem S512x512 .bf16) (harg2 : arg2.IsWhole)
    (arg3 : Memref sig .tc .vmem S512x512 .f32) (harg3 : arg3.IsWhole)
    (x0 x1 : Vec F S512x512 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the product kernel's pipeline on core c, at entry contents V. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.Region1Defs.lean ====
/-
  The pairwise kernel's region (a 4 x 4 grid; the second coordinate j walks the column blocks):
  the body's two branch conditions decided over the grid (reset the accumulator at j = 0, write
  the result block at j = 3), where the result window is idle, the memrefs the body is called on,
  and the region's invariant with the accumulator scratch named.
-/
import proofs.«181944_j42949672961129_2_alg».proof.Proof.Gen.KernelIdeal.Launch
import proofs.«181944_j42949672961129_2_alg».proof.Proof.Gen.KernelIdeal.Skeleton
import proofs.«181944_j42949672961129_2_alg».proof.Proof.Gen.KernelIdeal.Points
import proofs.«181944_j42949672961129_2_alg».proof.Proof.PairDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's first branch (reset the accumulator): taken when the column-block coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The body's second branch (write the result block): taken when the column-block coordinate is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-- One staging buffer of the result window, through which its contents are stated. -/
abbrev VO1_2 : View sig .tc .vmem S32x128 .f32 := (Memref.whole cc1_stg2_0 : Memref sig .tc .vmem S32x128 .f32).view
abbrev ms1_0 (t : Fin cfg1.N) : Memref sig .tc .vmem S32x16x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S32x16x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S32x128 .f32 := win1_2.stage (cfg1.slots t 2)
abbrev hs1_2 (t : Fin cfg1.N) : (ms1_2 t).IsWhole := hstage1_2 ((cfg1.slots t 2).cast nbuf1_2)
/-- The accumulator scratch, a whole scoped buffer of the kernel's own. -/
abbrev scM1 : Memref sig .tc .vmem S32x128 .f32 := Memref.whole cc1_scratch0
abbrev VS1 : View sig .tc .vmem S32x128 .f32 := scM1.view

/-- The scoped buffers of the core that this region neither stages through nor names: the product
    kernel's three staging buffers, each at some contents. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f))

/-- The region's scoped rest with the scratch as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ d, owns (c : Thread nD τ) scM1 fullShare d)) ∗ (∃ r, prngReg c r)) := by
  unfold Pipeline.ΦA; rw [scopedRest1_eq]; simp only [scM1, owns_whole]; try rfl

end Cert.KernelIdeal.Frame

end
-- ==== Proof.Region1RunA.lean ====
/-
  The pairwise kernel's body run once, whole, in the case j = 0 (the accumulator is reset first; the result block is not written): on whole staging memrefs
  holding the two loaded blocks, the body runs to the end leaving the blocks as they were and the
  accumulator scratch (and, where it stores it, the result buffer) with the body's stores written.
-/
import proofs.«181944_j42949672961129_2_alg».proof.Proof.Region1Defs

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S32x16x128 .f32) (harg2 : arg2.IsWhole) (arg3 : Memref sig .tc .vmem S32x16x128 .f32) (harg3 : arg3.IsWhole) (arg4 : Memref sig .tc .vmem S32x128 .f32) (harg4 : arg4.IsWhole) (arg5 : Memref sig .tc .vmem S32x128 .f32) (harg5 : arg5.IsWhole) (hc0 : cond1_0 i) (hc1 : ¬cond1_1 i)
    (x0 x1 : Vec F S32x16x128 .f32) :
    Σ' (L2 : List (View.Piece (Elt F) S32x128 .f32)), { LS : List (View.Piece (Elt F) S32x128 .f32) //
      ∀ (xi2 : Vec F S32x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__pairwise_kernel i arg2 harg2 arg3 harg3 arg4 harg4 arg5 harg5) K } := by
  refine ⟨[], ?_, fun xi2 E K => ?run⟩
  case run =>
    simp only [cc1__pairwise_kernel_eq_skeleton]; unfold cc1__pairwise_kernel_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Frame

end
-- ==== Proof.Region1RunB.lean ====
/-
  The pairwise kernel's body run once, whole, in the case j = 1 or 2 (the accumulator is carried; the result block is not written): on whole staging memrefs
  holding the two loaded blocks, the body runs to the end leaving the blocks as they were and the
  accumulator scratch (and, where it stores it, the result buffer) with the body's stores written.
-/
import proofs.«181944_j42949672961129_2_alg».proof.Proof.Region1Defs

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S32x16x128 .f32) (harg2 : arg2.IsWhole) (arg3 : Memref sig .tc .vmem S32x16x128 .f32) (harg3 : arg3.IsWhole) (arg4 : Memref sig .tc .vmem S32x128 .f32) (harg4 : arg4.IsWhole) (arg5 : Memref sig .tc .vmem S32x128 .f32) (harg5 : arg5.IsWhole) (hc0 : ¬cond1_0 i) (hc1 : ¬cond1_1 i)
    (x0 x1 : Vec F S32x16x128 .f32) (xs : Vec F S32x128 .f32) :
    Σ' (L2 : List (View.Piece (Elt F) S32x128 .f32)), { LS : List (View.Piece (Elt F) S32x128 .f32) //
      ∀ (xi2 : Vec F S32x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__pairwise_kernel i arg2 harg2 arg3 harg3 arg4 harg4 arg5 harg5) K } := by
  refine ⟨[], ?_, fun xi2 E K => ?run⟩
  case run =>
    simp only [cc1__pairwise_kernel_eq_skeleton]; unfold cc1__pairwise_kernel_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Frame

end
-- ==== Proof.Region1RunC.lean ====
/-
  The pairwise kernel's body run once, whole, in the case j = 3 (the accumulator is carried; the result block is written from it): on whole staging memrefs
  holding the two loaded blocks, the body runs to the end leaving the blocks as they were and the
  accumulator scratch (and, where it stores it, the result buffer) with the body's stores written.
-/
import proofs.«181944_j42949672961129_2_alg».proof.Proof.Region1Defs

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S32x16x128 .f32) (harg2 : arg2.IsWhole) (arg3 : Memref sig .tc .vmem S32x16x128 .f32) (harg3 : arg3.IsWhole) (arg4 : Memref sig .tc .vmem S32x128 .f32) (harg4 : arg4.IsWhole) (arg5 : Memref sig .tc .vmem S32x128 .f32) (harg5 : arg5.IsWhole) (hc0 : ¬cond1_0 i) (hc1 : cond1_1 i)
    (x0 x1 : Vec F S32x16x128 .f32) (xs : Vec F S32x128 .f32) :
    Σ' (L2 : List (View.Piece (Elt F) S32x128 .f32)), { LS : List (View.Piece (Elt F) S32x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc1__pairwise_kernel i arg2 harg2 arg3 harg3 arg4 harg4 arg5 harg5) K } := by
  refine ⟨?_, ?_, fun E K => ?run⟩
  case run =>
    simp only [cc1__pairwise_kernel_eq_skeleton]; unfold cc1__pairwise_kernel_skel
    simp only [k1_part1_eq_skeleton, k1_part2_eq_skeleton, k1_part3_eq_skeleton]
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Frame

end
-- ==== Proof.Region1.lean ====
/-
  The pairwise kernel's region: what each case of the body leaves in the accumulator scratch and
  in the result window's staging buffer, what they hold after each grid point (the accumulation
  over the points, by recursion), the region's invariant carrying the accumulator from point to
  point, the pipeline's proof data at any entry contents V, and the body obligation.
-/
import proofs.«181944_j42949672961129_2_alg».proof.Proof.Region1RunA
import proofs.«181944_j42949672961129_2_alg».proof.Proof.Region1RunB
import proofs.«181944_j42949672961129_2_alg».proof.Proof.Region1RunC

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Case A: the stores into the accumulator scratch cover it. -/
theorem scover1_A (c : Dev nD) (i : grid1.Coords) (arg2 : Memref sig .tc .vmem S32x16x128 .f32) (harg2 : arg2.IsWhole) (arg3 : Memref sig .tc .vmem S32x16x128 .f32) (harg3 : arg3.IsWhole) (arg4 : Memref sig .tc .vmem S32x128 .f32) (harg4 : arg4.IsWhole) (arg5 : Memref sig .tc .vmem S32x128 .f32) (harg5 : arg5.IsWhole) (hc0 : cond1_0 i) (hc1 : ¬cond1_1 i)
    (x0 x1 : Vec F S32x16x128 .f32) (y : S32x128.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S32x128.size (by sl_kernel_rfl) y

/-- What case A leaves in the accumulator scratch. -/
def sout1_A (c : Dev nD) (i : grid1.Coords) (arg2 : Memref sig .tc .vmem S32x16x128 .f32) (harg2 : arg2.IsWhole) (arg3 : Memref sig .tc .vmem S32x16x128 .f32) (harg3 : arg3.IsWhole) (arg4 : Memref sig .tc .vmem S32x128 .f32) (harg4 : arg4.IsWhole) (arg5 : Memref sig .tc .vmem S32x128 .f32) (harg5 : arg5.IsWhole) (hc0 : cond1_0 i) (hc1 : ¬cond1_1 i)
    (x0 x1 : Vec F S32x16x128 .f32) : Vec F S32x128 .f32 :=
  VS1.read (Elt F) (VS1.writes (Elt F) VS1.junk (kernelRun1_A c i arg2 harg2 arg3 harg3 arg4 harg4 arg5 harg5 hc0 hc1 x0 x1).2.1)

/-- What case A leaves in the result window's staging buffer (nothing is stored: a placeholder no one reads). -/
def out1_A_2 (c : Dev nD) (i : grid1.Coords) (arg2 : Memref sig .tc .vmem S32x16x128 .f32) (harg2 : arg2.IsWhole) (arg3 : Memref sig .tc .vmem S32x16x128 .f32) (harg3 : arg3.IsWhole) (arg4 : Memref sig .tc .vmem S32x128 .f32) (harg4 : arg4.IsWhole) (arg5 : Memref sig .tc .vmem S32x128 .f32) (harg5 : arg5.IsWhole) (hc0 : cond1_0 i) (hc1 : ¬cond1_1 i)
    (x0 x1 : Vec F S32x16x128 .f32) : Vec F S32x128 .f32 :=
  VO1_2.read (Elt F) (VO1_2.writes (Elt F) VO1_2.junk (kernelRun1_A c i arg2 harg2 arg3 harg3 arg4 harg4 arg5 harg5 hc0 hc1 x0 x1).1)

/-- Case B: the stores into the accumulator scratch cover it. -/
theorem scover1_B (c : Dev nD) (i : grid1.Coords) (arg2 : Memref sig .tc .vmem S32x16x128 .f32) (harg2 : arg2.IsWhole) (arg3 : Memref sig .tc .vmem S32x16x128 .f32) (harg3 : arg3.IsWhole) (arg4 : Memref sig .tc .vmem S32x128 .f32) (harg4 : arg4.IsWhole) (arg5 : Memref sig .tc .vmem S32x128 .f32) (harg5 : arg5.IsWhole) (hc0 : ¬cond1_0 i) (hc1 : ¬cond1_1 i)
    (x0 x1 : Vec F S32x16x128 .f32) (xs : Vec F S32x128 .f32) (y : S32x128.Idx) :
    ∃ pc ∈ (kernelRun1_B c i arg2 harg2 arg3 harg3 arg4 harg4 arg5 harg5 hc0 hc1 x0 x1 xs).2.1, y ∈ pc.1.set :=
  View.cover_of_tiledL (kernelRun1_B c i arg2 harg2 arg3 harg3 arg4 harg4 arg5 harg5 hc0 hc1 x0 x1 xs).2.1 S32x128.size (by sl_kernel_rfl) y

/-- What case B leaves in the accumulator scratch. -/
def sout1_B (c : Dev nD) (i : grid1.Coords) (arg2 : Memref sig .tc .vmem S32x16x128 .f32) (harg2 : arg2.IsWhole) (arg3 : Memref sig .tc .vmem S32x16x128 .f32) (harg3 : arg3.IsWhole) (arg4 : Memref sig .tc .vmem S32x128 .f32) (harg4 : arg4.IsWhole) (arg5 : Memref sig .tc .vmem S32x128 .f32) (harg5 : arg5.IsWhole) (hc0 : ¬cond1_0 i) (hc1 : ¬cond1_1 i)
    (x0 x1 : Vec F S32x16x128 .f32) (xs : Vec F S32x128 .f32) : Vec F S32x128 .f32 :=
  VS1.read (Elt F) (VS1.writes (Elt F) VS1.junk (kernelRun1_B c i arg2 harg2 arg3 harg3 arg4 harg4 arg5 harg5 hc0 hc1 x0 x1 xs).2.1)

/-- What case B leaves in the result window's staging buffer (nothing is stored: a placeholder no one reads). -/
def out1_B_2 (c : Dev nD) (i : grid1.Coords) (arg2 : Memref sig .tc .vmem S32x16x128 .f32) (harg2 : arg2.IsWhole) (arg3 : Memref sig .tc .vmem S32x16x128 .f32) (harg3 : arg3.IsWhole) (arg4 : Memref sig .tc .vmem S32x128 .f32) (harg4 : arg4.IsWhole) (arg5 : Memref sig .tc .vmem S32x128 .f32) (harg5 : arg5.IsWhole) (hc0 : ¬cond1_0 i) (hc1 : ¬cond1_1 i)
    (x0 x1 : Vec F S32x16x128 .f32) (xs : Vec F S32x128 .f32) : Vec F S32x128 .f32 :=
  VO1_2.read (Elt F) (VO1_2.writes (Elt F) VO1_2.junk (kernelRun1_B c i arg2 harg2 arg3 harg3 arg4 harg4 arg5 harg5 hc0 hc1 x0 x1 xs).1)

/-- Case C: the stores into the accumulator scratch cover it. -/
theorem scover1_C (c : Dev nD) (i : grid1.Coords) (arg2 : Memref sig .tc .vmem S32x16x128 .f32) (harg2 : arg2.IsWhole) (arg3 : Memref sig .tc .vmem S32x16x128 .f32) (harg3 : arg3.IsWhole) (arg4 : Memref sig .tc .vmem S32x128 .f32) (harg4 : arg4.IsWhole) (arg5 : Memref sig .tc .vmem S32x128 .f32) (harg5 : arg5.IsWhole) (hc0 : ¬cond1_0 i) (hc1 : cond1_1 i)
    (x0 x1 : Vec F S32x16x128 .f32) (xs : Vec F S32x128 .f32) (y : S32x128.Idx) :
    ∃ pc ∈ (kernelRun1_C c i arg2 harg2 arg3 harg3 arg4 harg4 arg5 harg5 hc0 hc1 x0 x1 xs).2.1, y ∈ pc.1.set :=
  View.cover_of_tiledL (kernelRun1_C c i arg2 harg2 arg3 harg3 arg4 harg4 arg5 harg5 hc0 hc1 x0 x1 xs).2.1 S32x128.size (by sl_kernel_rfl) y

/-- What case C leaves in the accumulator scratch. -/
def sout1_C (c : Dev nD) (i : grid1.Coords) (arg2 : Memref sig .tc .vmem S32x16x128 .f32) (harg2 : arg2.IsWhole) (arg3 : Memref sig .tc .vmem S32x16x128 .f32) (harg3 : arg3.IsWhole) (arg4 : Memref sig .tc .vmem S32x128 .f32) (harg4 : arg4.IsWhole) (arg5 : Memref sig .tc .vmem S32x128 .f32) (harg5 : arg5.IsWhole) (hc0 : ¬cond1_0 i) (hc1 : cond1_1 i)
    (x0 x1 : Vec F S32x16x128 .f32) (xs : Vec F S32x128 .f32) : Vec F S32x128 .f32 :=
  VS1.read (Elt F) (VS1.writes (Elt F) VS1.junk (kernelRun1_C c i arg2 harg2 arg3 harg3 arg4 harg4 arg5 harg5 hc0 hc1 x0 x1 xs).2.1)

/-- Case C: the stores into the result buffer cover it. -/
theorem cover1_C_2 (c : Dev nD) (i : grid1.Coords) (arg2 : Memref sig .tc .vmem S32x16x128 .f32) (harg2 : arg2.IsWhole) (arg3 : Memref sig .tc .vmem S32x16x128 .f32) (harg3 : arg3.IsWhole) (arg4 : Memref sig .tc .vmem S32x128 .f32) (harg4 : arg4.IsWhole) (arg5 : Memref sig .tc .vmem S32x128 .f32) (harg5 : arg5.IsWhole) (hc0 : ¬cond1_0 i) (hc1 : cond1_1 i)
    (x0 x1 : Vec F S32x16x128 .f32) (xs : Vec F S32x128 .f32) (y : S32x128.Idx) :
    ∃ pc ∈ (kernelRun1_C c i arg2 harg2 arg3 harg3 arg4 harg4 arg5 harg5 hc0 hc1 x0 x1 xs).1, y ∈ pc.1.set :=
  View.cover_of_tiledL (kernelRun1_C c i arg2 harg2 arg3 harg3 arg4 harg4 arg5 harg5 hc0 hc1 x0 x1 xs).1 S32x128.size (by sl_kernel_rfl) y

/-- What case C leaves in the result window's staging buffer. -/
def out1_C_2 (c : Dev nD) (i : grid1.Coords) (arg2 : Memref sig .tc .vmem S32x16x128 .f32) (harg2 : arg2.IsWhole) (arg3 : Memref sig .tc .vmem S32x16x128 .f32) (harg3 : arg3.IsWhole) (arg4 : Memref sig .tc .vmem S32x128 .f32) (harg4 : arg4.IsWhole) (arg5 : Memref sig .tc .vmem S32x128 .f32) (harg5 : arg5.IsWhole) (hc0 : ¬cond1_0 i) (hc1 : cond1_1 i)
    (x0 x1 : Vec F S32x16x128 .f32) (xs : Vec F S32x128 .f32) : Vec F S32x128 .f32 :=
  VO1_2.read (Elt F) (VO1_2.writes (Elt F) VO1_2.junk (kernelRun1_C c i arg2 harg2 arg3 harg3 arg4 harg4 arg5 harg5 hc0 hc1 x0 x1 xs).1)

/-- THE ACCUMULATION: what the result window's staging buffer and the accumulator scratch hold after
    the body at position n: the case the point is in, run on the point's blocks, over the accumulator
    the point before left. -/
def outsAt1 (c : Dev nD) : (n : ℕ) → n < cfg1.N → Vec F S32x128 .f32 × Vec F S32x128 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_2 c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t), sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_2 c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_2 c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: at the first point the scoped rest as the launch hands
    it; afterwards the same with the accumulator scratch at what the point before left. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ owns (c : Thread nD τ) scM1 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ owns (c : Thread nD τ) scM1 fullShare ((outsAt1 V c (n - 1) (by omega)).2)) ∗ (∃ r, prngReg c r)) := by
  cases n with
  | zero => exact absurd rfl hz
  | succ n => rfl

/-- The proof data of the pairwise kernel's pipeline on core c, at entry contents V: the two input
    windows hold the one array they share at the two halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the closed forms say which case the
    point is in; the invariant hands the body the accumulator at what the point before left (at anything
    at the first point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2 t (fun h => h1 ((hcond1_1 t).mp h))) (noFlush1_2 t (fun h => h1 ((hcond1_1 t).mp h)))]
      rw [outsAt1_A V c t h0 h1]
      unfold sout1_A; (try dsimp only)
      by_cases hz : t.val = 0
      · rw [PhiS1_castSucc V c t, PhiS1_zero V c _ _ hz, PhiA1_eq]
        iintro ⟨⟨⟨Ha, Hb, Hc, HS⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS]; · iexact HS
        iintro ⟨H0, H1, H2, ⟨%es, HS⟩⟩
        isplitl [Ha Hb Hc HS Hg]
        · isplitl [Ha Hb Hc HS]
          · isplitl [Ha]; · iexact Ha
            isplitl [Hb]; · iexact Hb
            isplitl [Hc]; · iexact Hc
            unfold owns; iexists _; isplitr
            swap; · iexact HS
            ipureintro; exact View.read_writes_of_cover _ _ _ _ _ (scover1_A c _ _ _ _ _ _ _ _ _ _ _ _ _)
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨Ha, Hb, Hc, HS⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS]; · iexists _; iexact HS
        iintro ⟨H0, H1, H2, ⟨%es, HS⟩⟩
        isplitl [Ha Hb Hc HS Hg]
        · isplitl [Ha Hb Hc HS]
          · isplitl [Ha]; · iexact Ha
            isplitl [Hb]; · iexact Hb
            isplitl [Hc]; · iexact Hc
            unfold owns; iexists _; isplitr
            swap; · iexact HS
            ipureintro; exact View.read_writes_of_cover _ _ _ _ _ (scover1_A c _ _ _ _ _ _ _ _ _ _ _ _ _)
          iexact Hg
        isplitl [Ho]; · iexact Ho
        isplitl [H0]; · iexact H0
        isplitl [H1]; · iexact H1
        iexists _; iexact H2
  · have hz : t.val ≠ 0 := fun hz => h0 (by rw [hz])
    by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_2 sout1_C; (try dsimp only)
      rw [PhiS1_castSucc V c t, PhiS1_pos V c _ _ hz]
      iintro ⟨⟨⟨Ha, Hb, Hc, HS⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [Ha Hb Hc HS Hg]
      · isplitl [Ha Hb Hc HS]
        · isplitl [Ha]; · iexact Ha
          isplitl [Hb]; · iexact Hb
          isplitl [Hc]; · iexact Hc
          unfold owns; iexists _; isplitr
          swap; · iexact HS
          ipureintro; exact View.read_writes_of_cover _ _ _ _ _ (scover1_C c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B; (try dsimp only)
      rw [PhiS1_castSucc V c t, PhiS1_pos V c _ _ hz]
      iintro ⟨⟨⟨Ha, Hb, Hc, HS⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [Ha Hb Hc HS Hg]
      · isplitl [Ha Hb Hc HS]
        · isplitl [Ha]; · iexact Ha
          isplitl [Hb]; · iexact Hb
          isplitl [Hc]; · iexact Hc
          unfold owns; iexists _; isplitr
          swap; · iexact HS
          ipureintro; exact View.read_writes_of_cover _ _ _ _ _ (scover1_B c _ _ _ _ _ _ _ _ _ _ _ _ _ _)
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped rest back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 16 := N_1; omega), PhiA1_eq]
  iintro ⟨⟨Ha, Hb, Hc, HS⟩, Hg⟩
  isplitl [Ha Hb Hc HS]
  · isplitl [Ha]; · iexact Ha
    isplitl [Hb]; · iexact Hb
    isplitl [Hc]; · iexact Hc
    iexists _; iexact HS
  iexact Hg

end Cert.KernelIdeal.Frame

end
-- ==== Proof.Shares.lean ====
/-
  The share bookkeeping of the pairwise region. Its two input windows read blocks of one array,
  the transposed features [32, 16, 512]; its output window writes the result [32, 512]. At entry the
  core holds each of the two buffers whole, at the full share. The region's windows hold, window by
  window, window 0 the first array at the left half of the full share, window 1 the same array at
  the right half, window 2 the second array at the full share. The two halves are disjoint and add
  up to the full share, and a points-to at a sum of shares is the separating conjunction of the
  points-tos at the summands, at the same contents. Hence the entry resources split into the
  windows' (arrays_split1) and the windows' join back into the exit resources (arrays_join1).
-/
import proofs.«181944_j42949672961129_2_alg».proof.Proof.Gen.KernelIdeal.Launch
import Idealize.ShloMosaic.Lib.Pipeline.Regions

noncomputable section

namespace Cert.KernelIdeal.Shares

open Idealize.ShloMosaic Idealize.ShloMosaic.TcCoe
open Idealize.SL Idealize.SL.RA Idealize.SL.BI
open scoped Idealize.SL.BI
open Idealize.SL.BI.BIBase Idealize.SL.Sem
open Cert.KernelIdeal Cert.KernelIdeal.Gen
open PCS

variable {Ix : Type} [DecidableEq Ix] {Val : EltTy → Type} {Name : Type} [DecidableEq Name] {U : Type} [URA U] {Lvl : Type}

/-- The left half of the full share: what window 0 holds of the shared array. -/
def qL : PosShare TreeShare := fullShare.left
/-- The right half of the full share: what window 1 holds of the shared array. -/
def qR : PosShare TreeShare := fullShare.right

/-- The two halves are disjoint and their sum is the full share. -/
theorem full_mem : fullShare ∈ qL ·? qR := PosShare.mem_left_op_right fullShare

/-- The three windows stand on two buffers. -/
theorem arrRef_image : Finset.univ.image (Pipeline.arrRef spec1) = {main_v5, main_v6} := by decide

/-- The distinct buffers behind the windows' arrays, each whole at the full share, one by one. -/
theorem arrBufs1_eq (c : Dev nD) (V : (b : Ref sig .tc) → Buf Val ((c : Thread nD τ).loc b)) :
    (Pipeline.arrBufs (Ix := Ix) (Name := Name) (U := U) (Lvl := Lvl) spec1 c V : sProp (MT nD τ sig Ix Val Name U Lvl))
      = iprop((((c : Thread nD τ).loc main_v5) ↦{fullShare} V main_v5) ∗ (((c : Thread nD τ).loc main_v6) ↦{fullShare} V main_v6)) := by
  unfold Pipeline.arrBufs
  exact bigSep_eq_bigSepL_of_eq [main_v5, main_v6] (by decide) (by decide) _

/-- The windows' arrays one by one: every array is a whole buffer; the two inputs are held at the
    two halves, the output at the full share. -/
theorem arrays1_eq (c : Dev nD) (dat : Pipeline.Dat τ Val Ix Name U Lvl cfg1 c)
    (hq0 : dat.q 0 = qL) (hq1 : dat.q 1 = qR)
    (F' : (w : Fin cfg1.W) → Buf Val ((cfg1.win w).arr.view.loc (c : Thread nD τ))) :
    (dat.arrays F' : sProp (MT nD τ sig Ix Val Name U Lvl))
      = iprop((((c : Thread nD τ).loc main_v5) ↦{qL} F' 0) ∗ (((c : Thread nD τ).loc main_v5) ↦{qR} F' 1)
          ∗ (((c : Thread nD τ).loc main_v6) ↦{fullShare} F' 2)) := by
  have hs0 : dat.share 0 = qL := (show dat.share 0 = dat.q 0 from rfl).trans hq0
  have hs1 : dat.share 1 = qR := (show dat.share 1 = dat.q 1 from rfl).trans hq1
  have hs2 : dat.share 2 = fullShare := rfl
  unfold Pipeline.Dat.arrays
  -- windows 0 and 1 stand on the same whole buffer: one rewriting of its element set serves both
  rw [Gen.bigSep_W1, (Gen.arr_whole1 0).set_eq_univ, (Gen.arr_whole1 2).set_eq_univ, hs0, hs1, hs2]

/-- Entry: the two buffers whole at the full share, at contents V, give the windows' arrays at the
    same contents — the shared buffer's full share splits into its two halves. -/
theorem arrays_split1 (c : Dev nD) (dat : Pipeline.Dat τ Val Ix Name U Lvl cfg1 c)
    (hq0 : dat.q 0 = qL) (hq1 : dat.q 1 = qR)
    (V : (b : Ref sig .tc) → Buf Val ((c : Thread nD τ).loc b))
    (F' : (w : Fin cfg1.W) → Buf Val ((cfg1.win w).arr.view.loc (c : Thread nD τ)))
    (hF : ∀ w, F' w = V (Pipeline.arrRef spec1 w)) :
    (Pipeline.arrBufs spec1 c V : sProp (MT nD τ sig Ix Val Name U Lvl)) ⊢ dat.arrays F' := by
  rw [arrBufs1_eq, arrays1_eq c dat hq0 hq1, hF 0, hF 1, hF 2]
  exact (BI.sep_mono (pointsTo_share full_mem).1 (.refl _)).trans BI.sep_assoc

/-- Exit: the windows' arrays at contents that come from one V' (in particular windows 0 and 1 at
    the same contents) give the two buffers whole at the full share at V' — the two halves of the
    shared buffer join into its full share. -/
theorem arrays_join1 (c : Dev nD) (dat : Pipeline.Dat τ Val Ix Name U Lvl cfg1 c)
    (hq0 : dat.q 0 = qL) (hq1 : dat.q 1 = qR)
    (V' : (b : Ref sig .tc) → Buf Val ((c : Thread nD τ).loc b))
    (F' : (w : Fin cfg1.W) → Buf Val ((cfg1.win w).arr.view.loc (c : Thread nD τ)))
    (hF : ∀ w, F' w = V' (Pipeline.arrRef spec1 w)) :
    dat.arrays F' ⊢ (Pipeline.arrBufs spec1 c V' : sProp (MT nD τ sig Ix Val Name U Lvl)) := by
  rw [arrBufs1_eq, arrays1_eq c dat hq0 hq1, hF 0, hF 1, hF 2]
  exact BI.sep_assoc'.trans (BI.sep_mono (pointsTo_share full_mem).2 (.refl _))

end Cert.KernelIdeal.Shares

end
-- ==== Proof.Run.lean ====
/-
  THE RUN: @main as five segments — the host lines before the product kernel, its region, the reshape
  and transpose between the kernels, the pairwise kernel's region, the transpose and join after it —
  with the buffers' contents named at every boundary (a fold from the launch memory: a host stretch
  applies its operations, a region leaves its result array at what its write-backs fold to), and the
  launch: every weakly fair execution terminates with every unscoped buffer at the last boundary's
  contents.
-/
import proofs.«181944_j42949672961129_2_alg».proof.Proof.Region0
import proofs.«181944_j42949672961129_2_alg».proof.Proof.Region1
import proofs.«181944_j42949672961129_2_alg».proof.Proof.Shares
import proofs.«181944_j42949672961129_2_alg».proof.Proof.Gen.KernelIdeal.Regions

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => m (c, b)
/-- After the first host stretch (the product kernel's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the product kernel's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the pairwise kernel's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the pairwise kernel's exit: its result array at what the pipeline leaves, every other buffer as entered. -/
def W4 (c : Dev nD) : Valuation τ sig (Elt F) :=
  Function.update (W3 m c) (Proc.devRef .tc main_v6) ((dat1 (V3 m) c).arrAt 2 cfg1.N)
abbrev V4 : (c : Dev nD) → (b : Ref sig .tc) → Buf (Elt F) ((c : Thread nD τ).loc b) := fun c b => W4 m c b
theorem W4_v6 (c : Dev nD) : V4 m c main_v6 = (dat1 (V3 m) c).arrAt 2 cfg1.N := by
  show W4 m c (Proc.devRef .tc main_v6) = _
  unfold W4; exact Function.update_self ..
theorem W4_of_ne (c : Dev nD) (b : Ref sig .tc) (hb : b ≠ main_v6) : V4 m c b = V3 m c b := by
  show W4 m c (Proc.devRef .tc b) = W3 m c (Proc.devRef .tc b)
  unfold W4; exact Function.update_of_ne (StableHlo.devRef_ne_of_ne hb) ..
/-- After the last host stretch. -/
abbrev W5 : Dev nD → Valuation τ sig (Elt F) := fun c => StableHlo.after hostOps2 (W4 m c)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the
    core owing nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- The product kernel's region: entered from every unscoped buffer at W1, left at W2. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pairwise kernel's region: entered from every unscoped buffer at W3, left at W4. Its two input
    windows read one array: the array's full share is dealt to them as its two halves at the entry and
    joined again at the exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hub : (StableHlo.held (c : Thread nD τ) (Pipeline.ucRefs τ sig) (W3 m c) : sProp 𝕄)
        = iprop(Pipeline.arrBufs spec1 c (V3 m c) ∗ Pipeline.unscopedRest spec1 c (V3 m c)) := by
      rw [← Pipeline.unscopedBufs_held c (W3 m c)]
      exact Pipeline.unscopedBufs_split₀ (Pipeline.pin (pcfgs (F := F)) adm) (1 : Fin 2) winFacts₀1.arr_unscoped c (V3 m c)
    have hsp := Shares.arrays_split1 (Ix := Unit) (Name := ℕ) (U := UR sig nD τ) (Lvl := ℕ) c (pdats m 1 c) rfl rfl (V3 m c)
      ((pdats m 1 c).arrAt · 0) (fun w => A_eq1 (V3 m) c w)
    rw [hub]
    iintro ⟨⟨⟨Hab, Hrest⟩, Hp, HO⟩, -, -⟩
    ihave Ha := hsp $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V3 m) c).Φ 0 from rfl]
    refine BIBase.Entails.trans ?_ (hin1 (V3 m) c)
    unfold Pipeline.ΦA
    iintro ⟨Hp, -, Hr⟩
    isplitl [Hr]; · iexact Hr
    iexact Hp
  hout c := by
    rw [Pipeline.ownSems0_none, show (pdats m 1 c).Φ (Fin.last _) = (dat1 (V3 m) c).Φ (Fin.last cfg1.N) from rfl]
    refine (hout1 (V3 m) c).trans ?_
    unfold Pipeline.ΦA
    iintro ⟨Hr, Hp⟩
    isplitl [Hp]; · iexact Hp
    isplitr; · iempintro
    iexact Hr
  hexit c := by
    have hub : (StableHlo.held (c : Thread nD τ) (Pipeline.ucRefs τ sig) (W4 m c) : sProp 𝕄)
        = iprop(Pipeline.arrBufs spec1 c (V4 m c) ∗ Pipeline.unscopedRest spec1 c (V4 m c)) := by
      rw [← Pipeline.unscopedBufs_held c (W4 m c)]
      exact Pipeline.unscopedBufs_split₀ (Pipeline.pin (pcfgs (F := F)) adm) (1 : Fin 2) winFacts₀1.arr_unscoped c (V4 m c)
    have hrest : (Pipeline.unscopedRest (Ix := Unit) (Name := ℕ) (U := UR sig nD τ) (Lvl := ℕ) spec1 c (V4 m c) : sProp 𝕄)
        = Pipeline.unscopedRest spec1 c (V3 m c) := by
      unfold Pipeline.unscopedRest
      exact bigSep_congr fun b hb => by
        rw [W4_of_ne m c b (fun e => (Finset.mem_sdiff.mp hb).2 (by
          rw [Shares.arrRef_image, e]; exact Finset.mem_insert_of_mem (Finset.mem_singleton_self _)))]
    have hjoin := Shares.arrays_join1 (Ix := Unit) (Name := ℕ) (U := UR sig nD τ) (Lvl := ℕ) c (pdats m 1 c) rfl rfl (V4 m c)
      ((pdats m 1 c).arrAt · cfg1.N) (fun w => match w with
        | ⟨0, _⟩ => ((pdats m 1 c).arrAt_in 0 rfl _).trans ((A_eq1 (V3 m) c 0).trans (W4_of_ne m c main_v5 (by decide)).symm)
        | ⟨1, _⟩ => ((pdats m 1 c).arrAt_in 1 rfl _).trans ((A_eq1 (V3 m) c 1).trans (W4_of_ne m c main_v5 (by decide)).symm)
        | ⟨2, _⟩ => (W4_v6 m c).symm)
    rw [hub, hrest]
    iintro ⟨Ha, HO, HY, Hrest⟩
    imodintro
    isplitl [Ha Hrest]
    · isplitl [Ha]; · iapply hjoin; iexact Ha
      iexact Hrest
    isplitl [HY]; · iexact HY
    unfold Pipeline.Dat.owesAt Pipeline.owesWithin
    icases HO with ⟨%W, -, HO⟩; iexists W; iexact HO

/-! ## @main as segments, and the launch -/

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor

/-- @main's five segments in order. -/
abbrev segs : List (Pipeline.Seg (pcfgs (F := F)) adm (pdats m) () defs₀ 𝒱₀ L lv) :=
  [ .host (hseg hostOps0 hostOps0_sub hostOps0_fresh' (W0 m)),
    .region (reg0 m),
    .host (hseg hostOps1 hostOps1_sub hostOps1_fresh' (W2 m)),
    .region (reg1 m),
    .host (hseg hostOps2 hostOps2_sub hostOps2_fresh' (W4 m)) ]

theorem main_run (c : Dev nD) : main (F := F) c = Pipeline.Seg.run (segs m) := (main_chain c).trans (by chain_rfl)

set_option backward.isDefEq.respectTransparency.types false in
/-- THE RUN: from any memory with zero counters every weakly fair execution of @main on the TensorCores
    terminates, nothing faulting, and every final state has every unscoped buffer at the last boundary's
    contents W5. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show (iprop(StableHlo.held (c : Thread nD τ) (Pipeline.ucRefs τ sig) (W5 m c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.KernelIdeal.Frame

end
-- ==== Proof.HostStages.lean ====
/-
  The host stretches read: each argument array reaches the end as launched (no host line and no
  region writes it), and the buffers the host lines write hold the lines' operations of what they
  read — the two casts and the reshape before the product kernel, the reshape and transpose between
  the kernels, the transpose and the join after the pairwise kernel.
-/
import proofs.«181944_j42949672961129_2_alg».proof.Proof.Run
import Idealize.ShloMosaic.Lib.StableHlo.Run

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

theorem W5_main_arg0 (c : Dev nD) : W5 m c (Proc.devRef .tc main_arg0) = m ((c : Thread nD τ).loc main_arg0) :=
  (StableHlo.after_of_writes_sub hostOps2 (W4 m c) hostOps2_writes (by decide : main_arg0 ∉ hostOps2_W)).trans <|
  (W4_of_ne m c main_arg0 (by decide)).trans <|
  (StableHlo.after_of_writes_sub hostOps1 (W2 m c) hostOps1_writes (by decide : main_arg0 ∉ hostOps1_W)).trans <|
  (W2_of_ne m c main_arg0 (by decide)).trans <|
  (StableHlo.after_of_writes_sub hostOps0 (W0 m c) hostOps0_writes (by decide : main_arg0 ∉ hostOps0_W)).trans rfl

theorem W5_main_arg1 (c : Dev nD) : W5 m c (Proc.devRef .tc main_arg1) = m ((c : Thread nD τ).loc main_arg1) :=
  (StableHlo.after_of_writes_sub hostOps2 (W4 m c) hostOps2_writes (by decide : main_arg1 ∉ hostOps2_W)).trans <|
  (W4_of_ne m c main_arg1 (by decide)).trans <|
  (StableHlo.after_of_writes_sub hostOps1 (W2 m c) hostOps1_writes (by decide : main_arg1 ∉ hostOps1_W)).trans <|
  (W2_of_ne m c main_arg1 (by decide)).trans <|
  (StableHlo.after_of_writes_sub hostOps0 (W0 m c) hostOps0_writes (by decide : main_arg1 ∉ hostOps0_W)).trans rfl

/-- The first argument is still as launched when the last host stretch joins it to the result. -/
theorem W4_main_arg0 (c : Dev nD) : W4 m c (Proc.devRef .tc main_arg0) = m ((c : Thread nD τ).loc main_arg0) :=
  (W4_of_ne m c main_arg0 (by decide)).trans <|
  (StableHlo.after_of_writes_sub hostOps1 (W2 m c) hostOps1_writes (by decide : main_arg0 ∉ hostOps1_W)).trans <|
  (W2_of_ne m c main_arg0 (by decide)).trans <|
  (StableHlo.after_of_writes_sub hostOps0 (W0 m c) hostOps0_writes (by decide : main_arg0 ∉ hostOps0_W)).trans rfl

/-- The product kernel's first operand: the first argument, cast. -/
theorem V1_v1 (c : Dev nD) : V1 m c main_v1 = truncf .bf16 (m ((c : Thread nD τ).loc main_arg0)) bitsLt_bf16_f32 := by
  show StableHlo.after hostOps0 (fun b => m (c, b)) (Proc.devRef .tc main_v1) = _
  after_results <;> rfl

/-- Its second operand: the second argument flattened to [512, 512], cast. -/
theorem V1_v2 (c : Dev nD) : V1 m c main_v2
    = truncf .bf16 (shapeCast S512x512 (m ((c : Thread nD τ).loc main_arg1)) shapeCasts_S512x32x16_S512x512) bitsLt_bf16_f32 := by
  show StableHlo.after hostOps0 (fun b => m (c, b)) (Proc.devRef .tc main_v2) = _
  after_results <;> rfl

/-- The pairwise kernel's operand: the product reshaped to [512, 32, 16] and transposed to [32, 16, 512]. -/
theorem V3_v5 (c : Dev nD) : V3 m c main_v5
    = transpose S32x16x512 [1, 2, 0] (shapeCast S512x32x16 (V2 m c main_v3) shapeCasts_S512x512_S512x32x16) transposes_S512x32x16_S32x16x512_1_2_0 := by
  show StableHlo.after hostOps1 (W2 m c) (Proc.devRef .tc main_v5) = _
  after_results <;> rfl

/-- The result: the first argument joined with the transposed statistic. -/
theorem W5_v8 (c : Dev nD) : W5 m c (Proc.devRef .tc main_v8)
    = concatenate S512x544 1 [⟨S512x512, W4 m c (Proc.devRef .tc main_arg0)⟩,
        ⟨S512x32, transpose S512x32 [1, 0] (W4 m c (Proc.devRef .tc main_v6)) transposes_S32x512_S512x32_1_0⟩] concatenates_S512x512_S512x32_S512x544_d1 := by
  show StableHlo.after hostOps2 (W4 m c) (Proc.devRef .tc main_v8) = _
  after_results <;> rfl

end Cert.KernelIdeal.Frame

end
-- ==== Proof.Pieces.lean ====
/-
  The contents the two kernels' bodies leave, read back as the named payload terms: the product
  kernel's result buffer is the product of its two operand blocks; the pairwise kernel's accumulator
  scratch after a grid point is the accumulation step over the two loaded blocks, from the zero block
  at a first column block (j = 0) and from the accumulator the point before left otherwise; and at a
  last column block (j = 3) the result buffer is the result block of that accumulator.

  Every load and store of the two bodies goes through the whole-buffer rectangle at zero offsets, so a
  load reads the buffer's contents and a store leaves its payload.
-/
import proofs.«181944_j42949672961129_2_alg».proof.Proof.Region0
import proofs.«181944_j42949672961129_2_alg».proof.Proof.Region1
import proofs.«181944_j42949672961129_2_alg».proof.Proof.PairDefs
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.ShloMosaic.Tactic
open Idealize.SL.Sem
open Cert.KernelIdeal Cert.KernelIdeal.Gen Cert.KernelIdeal.Frame Cert.KernelIdeal.Pair

variable {F : FTy → Type} [FloatOps F]

/-- The zero offsets of a rank-2 rectangle, as the constant function. -/
theorem hz : (![0, 0] : Fin 2 → Nat) = fun _ => 0 := funext fun a => by fin_cases a <;> rfl
/-- The zero offsets of a rank-3 rectangle, as the constant function. -/
theorem hz3 : (![0, 0, 0] : Fin 3 → Nat) = fun _ => 0 := funext fun a => by fin_cases a <;> rfl

/-- The product kernel's result buffer after the body: the product of the two operand blocks. -/
theorem out0_2_eq (x0 x1 : Vec F S512x512 .bf16) : out0_2 (F := F) x0 x1 = Pair.prod x0 x1 := by
  unfold out0_2 r0
  rw [View.canon_unit_zero hz]
  unfold Pair.prod
  simp only [View.ld_unit_zero (S := S512x512) hz]

/-- A first column block (j = 0): the zero block is stored into the scratch and read back, and the
    scratch is left at the step over the two blocks from the zero block. -/
theorem sout1_A_eq (c : Dev nD) (i : grid1.Coords) (arg2 : Memref sig .tc .vmem S32x16x128 .f32) (harg2 : arg2.IsWhole) (arg3 : Memref sig .tc .vmem S32x16x128 .f32) (harg3 : arg3.IsWhole) (arg4 : Memref sig .tc .vmem S32x128 .f32) (harg4 : arg4.IsWhole) (arg5 : Memref sig .tc .vmem S32x128 .f32) (harg5 : arg5.IsWhole) (hc0 : cond1_0 i) (hc1 : ¬cond1_1 i)
    (x0 x1 : Vec F S32x16x128 .f32) :
    sout1_A c i arg2 harg2 arg3 harg3 arg4 harg4 arg5 harg5 hc0 hc1 x0 x1 = Pair.accStep x0 x1 Pair.accZero := by
  unfold sout1_A
  rw [View.read_writes_eq_canon _ _ _ (scover1_A c i arg2 harg2 arg3 harg3 arg4 harg4 arg5 harg5 hc0 hc1 x0 x1)]
  unfold kernelRun1_A
  dsimp only
  sl_unfold_words
  rw [View.canon_cons_unit_zero (S := S32x128) hz, View.readCov_unit_zero (S := S32x128) _ hz]
  unfold accStep accZero
  simp only [View.readAt_eq_ld, harg2.read_unread, harg3.read_unread,
    View.ld_unit_zero (S := S32x16x128) hz3]

/-- A middle column block (j = 1, 2): the scratch holding xs is left at the step over the two blocks
    from xs. -/
theorem sout1_B_eq (c : Dev nD) (i : grid1.Coords) (arg2 : Memref sig .tc .vmem S32x16x128 .f32) (harg2 : arg2.IsWhole) (arg3 : Memref sig .tc .vmem S32x16x128 .f32) (harg3 : arg3.IsWhole) (arg4 : Memref sig .tc .vmem S32x128 .f32) (harg4 : arg4.IsWhole) (arg5 : Memref sig .tc .vmem S32x128 .f32) (harg5 : arg5.IsWhole) (hc0 : ¬cond1_0 i) (hc1 : ¬cond1_1 i)
    (x0 x1 : Vec F S32x16x128 .f32) (xs : Vec F S32x128 .f32) :
    sout1_B c i arg2 harg2 arg3 harg3 arg4 harg4 arg5 harg5 hc0 hc1 x0 x1 xs = Pair.accStep x0 x1 xs := by
  unfold sout1_B
  rw [View.read_writes_eq_canon _ _ _ (scover1_B c i arg2 harg2 arg3 harg3 arg4 harg4 arg5 harg5 hc0 hc1 x0 x1 xs)]
  unfold kernelRun1_B
  dsimp only
  sl_unfold_words
  rw [View.canon_unit_zero (S := S32x128) hz]
  unfold accStep
  simp only [View.readAt_eq_ld, harg2.read_unread, harg3.read_unread, harg5.read_unread,
    View.ld_unit_zero (S := S32x16x128) hz3, View.ld_unit_zero (S := S32x128) hz]

/-- A last column block (j = 3): the scratch holding xs is left at the step over the two blocks from
    xs, as at a middle one. -/
theorem sout1_C_eq (c : Dev nD) (i : grid1.Coords) (arg2 : Memref sig .tc .vmem S32x16x128 .f32) (harg2 : arg2.IsWhole) (arg3 : Memref sig .tc .vmem S32x16x128 .f32) (harg3 : arg3.IsWhole) (arg4 : Memref sig .tc .vmem S32x128 .f32) (harg4 : arg4.IsWhole) (arg5 : Memref sig .tc .vmem S32x128 .f32) (harg5 : arg5.IsWhole) (hc0 : ¬cond1_0 i) (hc1 : cond1_1 i)
    (x0 x1 : Vec F S32x16x128 .f32) (xs : Vec F S32x128 .f32) :
    sout1_C c i arg2 harg2 arg3 harg3 arg4 harg4 arg5 harg5 hc0 hc1 x0 x1 xs = Pair.accStep x0 x1 xs := by
  unfold sout1_C
  rw [View.read_writes_eq_canon _ _ _ (scover1_C c i arg2 harg2 arg3 harg3 arg4 harg4 arg5 harg5 hc0 hc1 x0 x1 xs)]
  unfold kernelRun1_C
  dsimp only
  sl_unfold_words
  rw [View.canon_unit_zero (S := S32x128) hz]
  unfold accStep
  simp only [View.readAt_eq_ld, harg2.read_unread, harg3.read_unread, harg5.read_unread,
    View.ld_unit_zero (S := S32x16x128) hz3, View.ld_unit_zero (S := S32x128) hz]

/-- A last column block (j = 3): the scratch is read back after that step, and the result buffer is
    left at the result block of it. -/
theorem out1_C_2_eq (c : Dev nD) (i : grid1.Coords) (arg2 : Memref sig .tc .vmem S32x16x128 .f32) (harg2 : arg2.IsWhole) (arg3 : Memref sig .tc .vmem S32x16x128 .f32) (harg3 : arg3.IsWhole) (arg4 : Memref sig .tc .vmem S32x128 .f32) (harg4 : arg4.IsWhole) (arg5 : Memref sig .tc .vmem S32x128 .f32) (harg5 : arg5.IsWhole) (hc0 : ¬cond1_0 i) (hc1 : cond1_1 i)
    (x0 x1 : Vec F S32x16x128 .f32) (xs : Vec F S32x128 .f32) :
    out1_C_2 c i arg2 harg2 arg3 harg3 arg4 harg4 arg5 harg5 hc0 hc1 x0 x1 xs = Pair.outOf (Pair.accStep x0 x1 xs) := by
  unfold out1_C_2
  rw [View.read_writes_eq_canon _ _ _ (cover1_C_2 c i arg2 harg2 arg3 harg3 arg4 harg4 arg5 harg5 hc0 hc1 x0 x1 xs)]
  unfold kernelRun1_C
  dsimp only
  sl_unfold_words
  rw [View.canon_unit_zero (S := S32x128) hz, View.readCov_unit_zero (S := S32x128) _ hz]
  unfold outOf accStep
  simp only [View.readAt_eq_ld, harg2.read_unread, harg3.read_unread, harg5.read_unread,
    View.ld_unit_zero (S := S32x16x128) hz3, View.ld_unit_zero (S := S32x128) hz]

end Cert.KernelIdeal.Pieces

end
-- ==== Proof.Blocks.lean ====
/-
  What the windows' blocks are, as entries of the arrays the regions find.

  The pairwise kernel's grid is 4 x 4; point t has row block t / 4 and column block t % 4.  Its
  two operand windows cut blocks [32, 16, 128] out of the same array [32, 16, 512] along the last
  axis: window 0 at the row block, window 1 at the column block.  A block's coordinate along an
  axis is (block index) * (block size) + (coordinate inside the block).

  The product kernel has one grid point and whole-array blocks: its operand blocks are the arrays.
-/
import proofs.«181944_j42949672961129_2_alg».proof.Proof.Region0
import proofs.«181944_j42949672961129_2_alg».proof.Proof.Region1
import Idealize.ShloMosaic.Lib.ValueIdx

noncomputable section

namespace Cert.KernelIdeal.Blocks

open Idealize.ShloMosaic Idealize.ShloMosaic.TcCoe Idealize.ShloMosaic.ValueIdx Idealize.SL.Sem
open Cert.KernelIdeal Cert.KernelIdeal.Gen Cert.KernelIdeal.Frame

variable {F : FTy → Type} [FloatOps F]
variable (V : (c : Dev nD) → (b : Ref sig .tc) → Buf (Elt F) ((c : Thread nD τ).loc b))

/-- The pairwise grid has 16 points. -/
theorem lt16 (t : Fin cfg1.N) : t.val < 16 := N_1 ▸ t.isLt

/-- Window 0's block index at point t: (0, 0, t / 4). -/
theorem index1_0 : ∀ t : Fin cfg1.N, win1_0.index t 2 = t.val / 4 ∧ win1_0.index t 0 = 0 ∧ win1_0.index t 1 = 0 :=
  (by decide +kernel : ∀ t : Fin grid1.N, win1_0.index t 2 = t.val / 4 ∧ win1_0.index t 0 = 0 ∧ win1_0.index t 1 = 0)

/-- Window 1's block index at point t: (0, 0, t % 4). -/
theorem index1_1 : ∀ t : Fin cfg1.N, win1_1.index t 2 = t.val % 4 ∧ win1_1.index t 0 = 0 ∧ win1_1.index t 1 = 0 :=
  (by decide +kernel : ∀ t : Fin grid1.N, win1_1.index t 2 = t.val % 4 ∧ win1_1.index t 0 = 0 ∧ win1_1.index t 1 = 0)

/-- The result window's block index at point t: (0, t / 4). -/
theorem index1_2 : ∀ t : Fin cfg1.N, win1_2.index t 1 = t.val / 4 ∧ win1_2.index t 0 = 0 :=
  (by decide +kernel : ∀ t : Fin grid1.N, win1_2.index t 1 = t.val / 4 ∧ win1_2.index t 0 = 0)

/-- Window 0's block at point t is columns (t / 4) * 128 + r of the array: the row block. -/
theorem iblk1_0_apply (c : Dev nD) (t : Fin cfg1.N) (b : Fin 32) (cc : Fin 16) (r : Fin 128) :
    (iblk1 V c 0 t : Vec F S32x16x128 .f32) (ix3 b cc r)
      = (V c main_v5 : Vec F S32x16x512 .f32)
          (ix3 b cc ⟨(t.val / 4) * 128 + r.val, by have := lt16 t; have := r.isLt; omega⟩) := by
  have hi := index1_0 t
  unfold iblk1
  rw [View.read_apply]
  show (V c main_v5 : Vec F S32x16x512 .f32) _ = _
  congr 1
  funext a
  apply Fin.ext
  match a with
  | ⟨0, _⟩ => show win1_0.index t 0 * 32 + 1 * b.val = b.val; rw [hi.2.1]; omega
  | ⟨1, _⟩ => show win1_0.index t 1 * 16 + 1 * cc.val = cc.val; rw [hi.2.2]; omega
  | ⟨2, _⟩ => show win1_0.index t 2 * 128 + 1 * r.val = t.val / 4 * 128 + r.val; rw [hi.1]; omega

/-- Window 1's block at point t is columns (t % 4) * 128 + r of the array: the column block. -/
theorem iblk1_1_apply (c : Dev nD) (t : Fin cfg1.N) (b : Fin 32) (cc : Fin 16) (r : Fin 128) :
    (iblk1 V c 1 t : Vec F S32x16x128 .f32) (ix3 b cc r)
      = (V c main_v5 : Vec F S32x16x512 .f32)
          (ix3 b cc ⟨(t.val % 4) * 128 + r.val, by have := r.isLt; omega⟩) := by
  have hi := index1_1 t
  unfold iblk1
  rw [View.read_apply]
  show (V c main_v5 : Vec F S32x16x512 .f32) _ = _
  congr 1
  funext a
  apply Fin.ext
  match a with
  | ⟨0, _⟩ => show win1_1.index t 0 * 32 + 1 * b.val = b.val; rw [hi.2.1]; omega
  | ⟨1, _⟩ => show win1_1.index t 1 * 16 + 1 * cc.val = cc.val; rw [hi.2.2]; omega
  | ⟨2, _⟩ => show win1_1.index t 2 * 128 + 1 * r.val = t.val % 4 * 128 + r.val; rw [hi.1]; omega

/-- The product kernel's block indices are zero. -/
theorem index0_0 : ∀ t : Fin cfg0.N, win0_0.index t 0 = 0 ∧ win0_0.index t 1 = 0 :=
  (by decide +kernel : ∀ t : Fin grid0.N, win0_0.index t 0 = 0 ∧ win0_0.index t 1 = 0)
theorem index0_1 : ∀ t : Fin cfg0.N, win0_1.index t 0 = 0 ∧ win0_1.index t 1 = 0 :=
  (by decide +kernel : ∀ t : Fin grid0.N, win0_1.index t 0 = 0 ∧ win0_1.index t 1 = 0)

/-- The product kernel's first operand block is the whole first operand array. -/
theorem iblk0_0_eq (c : Dev nD) (t : Fin cfg0.N) :
    (iblk0 V c 0 t : Vec F S512x512 .bf16) = V c main_v1 := by
  have hi := index0_0 t
  funext j
  unfold iblk0
  rw [View.read_apply]
  show (V c main_v1 : Vec F S512x512 .bf16) _ = _
  congr 1
  funext a
  apply Fin.ext
  match a with
  | ⟨0, _⟩ => show win0_0.index t 0 * 512 + 1 * (j 0).val = (j 0).val; rw [hi.1]; omega
  | ⟨1, _⟩ => show win0_0.index t 1 * 512 + 1 * (j 1).val = (j 1).val; rw [hi.2]; omega

/-- The product kernel's second operand block is the whole second operand array. -/
theorem iblk0_1_eq (c : Dev nD) (t : Fin cfg0.N) :
    (iblk0 V c 1 t : Vec F S512x512 .bf16) = V c main_v2 := by
  have hi := index0_1 t
  funext j
  unfold iblk0
  rw [View.read_apply]
  show (V c main_v2 : Vec F S512x512 .bf16) _ = _
  congr 1
  funext a
  apply Fin.ext
  match a with
  | ⟨0, _⟩ => show win0_1.index t 0 * 512 + 1 * (j 0).val = (j 0).val; rw [hi.1]; omega
  | ⟨1, _⟩ => show win0_1.index t 1 * 512 + 1 * (j 1).val = (j 1).val; rw [hi.2]; omega

end Cert.KernelIdeal.Blocks

end
-- ==== Proof.Finals.lean ====
/-
  The result arrays the two regions leave, from what each grid point writes back.

  The product kernel has one grid point; its result window's block is the whole [512, 512] array
  and is written back at that point: the array ends holding the product of the two operand blocks.

  The pairwise kernel runs a 4 x 4 grid, point t = 4 i + j. Its result window's block is
  [32, 128]; at point t it sits at block index (0, t / 4) of the [32, 512] result array, that is at
  columns 128 (t / 4) .. 128 (t / 4) + 127, and it is written back only at the points with
  t mod 4 = 3, after the last column block has been accumulated. The four written blocks, at
  t = 3, 7, 11, 15, tile the array: column n lies in the block of the point 4 (n / 128) + 3. Hence
  if what each writing point leaves in the staging buffer is the corresponding block of ONE
  function G of the whole array, the array ends holding G.
-/
import proofs.«181944_j42949672961129_2_alg».proof.Proof.Region0
import proofs.«181944_j42949672961129_2_alg».proof.Proof.Region1
import Idealize.ShloMosaic.Lib.Pipeline.Value
import Idealize.ShloMosaic.Lib.ValueIdx

set_option maxRecDepth 16384

noncomputable section

namespace Cert.KernelIdeal.Finals

open Idealize.ShloMosaic Idealize.ShloMosaic.TcCoe Idealize.SL.Sem
open Idealize.ShloMosaic.ValueIdx
open Idealize.ShloMosaic.Pipeline (Dat)
open Cert.KernelIdeal Cert.KernelIdeal.Gen Cert.KernelIdeal.Frame

variable {F : FTy → Type} [FloatOps F]
variable (V : (c : Dev nD) → (b : Ref sig .tc) → Buf (Elt F) ((c : Thread nD τ).loc b))

/-- The product of the two operand blocks at the one grid point, as contents of the result array
    (the result window's one block is the whole array). -/
abbrev result0 (c : Dev nD) : Buf (Elt F) ((c : Thread nD τ).loc main_v3) :=
  out0_2 (iblk0 V c 0 t0_0) (iblk0 V c 1 t0_0)

/-- The one write-back writes it: block (0, 0) of the [512, 512] array, read at zero offsets, is the array. -/
theorem flushed0_eq (c : Dev nD) (t : Fin cfg0.N) (hf : (cfg0.win 2).flush t = true) :
    (dat0 V c).flushed 2 t = ((cfg0.win 2).blk t).view.read (Elt F) (result0 V c) := by
  obtain rfl : t = t0_0 := fin_N0 t
  show (cfg0.win 2).cut (grid0.coords t0_0) ((dat0 V c).after 2 t0_0) = _
  rw [after0_2]
  have hz' : (fun a => win0_2.index t0_0 a * main_v3.ty.shape.size a) = fun _ => 0 := funext fun a => by fin_cases a <;> decide
  exact (Memref.read_access_unit_zero (Elt F) main_v3 hz' (fun a => by rw [congrFun hz' a]; simp) (result0 V c)).symm

/-- The product kernel's result array ends holding the product of the two operand blocks: its one
    point's block covers every index. -/
theorem final0 (c : Dev nD) : (dat0 V c).arrAt 2 cfg0.N = out0_2 (iblk0 V c 0 t0_0) (iblk0 V c 1 t0_0) :=
  (dat0 V c).arrAt_eq_of_cover 2 (result0 V c) (flushed0_eq V c) fun i =>
    ⟨t0_0, flush0_2 t0_0, by
      show i ∈ ((View.whole main_v3).slice (win0_2.rect t0_0)).set
      rw [View.set_slice_whole, Rect.mem_set_unit]
      intro a
      have h0 : (i 0 : Nat) < 512 := (i 0).isLt
      have h1 : (i 1 : Nat) < 512 := (i 1).isLt
      match a with
      | ⟨0, _⟩ => show win0_2.index t0_0 0 * win0_2.size 0 ≤ (i 0 : Nat) ∧ (i 0 : Nat) < win0_2.index t0_0 0 * win0_2.size 0 + win0_2.xsize (grid0.coords t0_0) 0
                  rw [show win0_2.index t0_0 0 * win0_2.size 0 = 0 from by decide +kernel, show win0_2.xsize (grid0.coords t0_0) 0 = 512 from by decide +kernel]; omega
      | ⟨1, _⟩ => show win0_2.index t0_0 1 * win0_2.size 1 ≤ (i 1 : Nat) ∧ (i 1 : Nat) < win0_2.index t0_0 1 * win0_2.size 1 + win0_2.xsize (grid0.coords t0_0) 1
                  rw [show win0_2.index t0_0 1 * win0_2.size 1 = 0 from by decide +kernel, show win0_2.xsize (grid0.coords t0_0) 1 = 512 from by decide +kernel]; omega⟩

/-- The result window's block index at point t: (0, t / 4), over all sixteen points. -/
theorem idx1_2 : ∀ t : Fin cfg1.N, win1_2.index t (0 : Fin 2) = 0 ∧ win1_2.index t (1 : Fin 2) = t.val / 4 :=
  (by decide +kernel : ∀ t : Fin grid1.N, win1_2.index t (0 : Fin 2) = 0 ∧ win1_2.index t (1 : Fin 2) = t.val / 4)

/-- Column r of the block at point t is column 128 (t / 4) + r of the array, below 512. -/
theorem col_lt (t : Fin cfg1.N) (r : Fin 128) : (t.val / 4) * 128 + r.val < 512 := by
  have h : t.val < 16 := Nat.lt_of_lt_of_eq t.isLt N_1
  have := r.isLt
  omega

/-- An index of the array is in point t's block iff each coordinate is in the block's range on its axis. -/
theorem mem_blk1_2 (t : Fin cfg1.N) (i : S32x512.Idx) :
    i ∈ ((cfg1.win 2).blk t).view.set ↔ ∀ a : Fin 2, win1_2.index t a * S32x128.size a ≤ (i a).val ∧ (i a).val < win1_2.index t a * S32x128.size a + S32x128.size a := by
  show i ∈ ((View.whole main_v6).slice (win1_2.rect t)).set ↔ _
  rw [View.set_slice_whole, Rect.mem_set_unit]
  exact Iff.rfl

/-- What a writing point t (t mod 4 = 3) writes back is block t of G: element (b, r) of the block is
    element (b, 128 (t / 4) + r) of the array, and there the staging buffer holds G. -/
theorem flushed1_eq (c : Dev nD) (G : Buf (Elt F) ((c : Thread nD τ).loc main_v6))
    (hG : ∀ (t : Fin cfg1.N), t.val % 4 = 3 → ∀ (b : Fin 32) (r : Fin 128),
      (outsAt1 V c t.val t.isLt).1 (ix2 b r) = G (ix2 b ⟨(t.val / 4) * 128 + r.val, col_lt t r⟩))
    (t : Fin cfg1.N) (hf : (cfg1.win 2).flush t = true) :
    (dat1 V c).flushed 2 t = ((cfg1.win 2).blk t).view.read (Elt F) G := by
  have ht : t.val % 4 = 3 := (flush1_2 t).mp hf
  obtain ⟨e0, e1⟩ := idx1_2 t
  show (cfg1.win 2).cut (grid1.coords t) ((dat1 V c).after 2 t) = _
  rw [after1_2]
  funext j
  have hl : (cfg1.win 2).xinj (grid1.coords t) j = ix2 (j 0) (j 1) := by
    funext a; match a with | ⟨0, _⟩ => rfl | ⟨1, _⟩ => rfl
  have hr : ((cfg1.win 2).blk t).view.emb j = ix2 (j 0) ⟨(t.val / 4) * 128 + (j 1).val, col_lt t (j 1)⟩ := by
    funext a; apply Fin.ext
    match a with
    | ⟨0, _⟩ => show win1_2.index t (0 : Fin 2) * 32 + 1 * (j 0).val = (j 0).val; rw [e0]; omega
    | ⟨1, _⟩ => show win1_2.index t (1 : Fin 2) * 128 + 1 * (j 1).val = (t.val / 4) * 128 + (j 1).val; rw [e1]; omega
  show (outsAt1 V c t.val t.isLt).1 ((cfg1.win 2).xinj (grid1.coords t) j) = G (((cfg1.win 2).blk t).view.emb j)
  rw [hl, hr]
  exact hG t ht (j 0) (j 1)

/-- The pairwise kernel's result array ends holding G: index (b, n) is covered by the writing point
    4 (n / 128) + 3, whose block spans columns 128 (n / 128) .. 128 (n / 128) + 127. -/
theorem final1 (c : Dev nD) (G : Buf (Elt F) ((c : Thread nD τ).loc main_v6))
    (hG : ∀ (t : Fin cfg1.N), t.val % 4 = 3 → ∀ (b : Fin 32) (r : Fin 128),
      (outsAt1 V c t.val t.isLt).1 (ix2 b r) = G (ix2 b ⟨(t.val / 4) * 128 + r.val, col_lt t r⟩)) :
    (dat1 V c).arrAt 2 cfg1.N = G :=
  (dat1 V c).arrAt_eq_of_cover 2 G (flushed1_eq V c G hG) fun i => by
    have hi0 : (i 0).val < 32 := (i 0).isLt
    have hi1 : (i 1).val < 512 := (i 1).isLt
    have hN : cfg1.N = 16 := N_1
    have hlt : 4 * ((i 1).val / 128) + 3 < cfg1.N := by rw [hN]; omega
    obtain ⟨e0, e1⟩ := idx1_2 ⟨4 * ((i 1).val / 128) + 3, hlt⟩
    refine ⟨⟨4 * ((i 1).val / 128) + 3, hlt⟩, (flush1_2 _).mpr (by show (4 * ((i 1).val / 128) + 3) % 4 = 3; omega), ?_⟩
    rw [mem_blk1_2]
    intro a
    match a with
    | ⟨0, _⟩ =>
      show win1_2.index ⟨4 * ((i 1).val / 128) + 3, hlt⟩ (0 : Fin 2) * 32 ≤ (i 0).val ∧ (i 0).val < win1_2.index ⟨4 * ((i 1).val / 128) + 3, hlt⟩ (0 : Fin 2) * 32 + 32
      rw [e0]; omega
    | ⟨1, _⟩ =>
      show win1_2.index ⟨4 * ((i 1).val / 128) + 3, hlt⟩ (1 : Fin 2) * 128 ≤ (i 1).val ∧ (i 1).val < win1_2.index ⟨4 * ((i 1).val / 128) + 3, hlt⟩ (1 : Fin 2) * 128 + 128
      rw [e1]
      show (4 * ((i 1).val / 128) + 3) / 4 * 128 ≤ (i 1).val ∧ (i 1).val < (4 * ((i 1).val / 128) + 3) / 4 * 128 + 128
      omega

end Cert.KernelIdeal.Finals

end
-- ==== Proof.PairPayload.lean ====
/-
  What one grid point of the pairwise kernel computes, element by element, over the extended reals.

  The kernel takes row c of each of its two [32,16,128] blocks, views the first as a column and the
  second as a row of a [32,128,128] array, subtracts, takes the absolute value, and adds the 16 rows'
  results up from zero; it then negates (as 0 - dist), exponentiates, sums over the last axis and adds
  the result to the accumulator. Read at (b, r):

      accStep mi mj acc (b, r) = acc (b, r) + Σ_{jj < 128} exp (-(Σ_{c < 16} |mi(b,c,r) - mj(b,c,jj)|))
      accZero (b, r)           = 0
      outOf acc (b, r)         = acc (b, r) - w        (w the value of the binary word 0x3F800000, kept as that word)

  |x| is max x (-x). Addition of extended reals is commutative and associative, so the left-nested sum
  from zero is the sum over c; the minus sign is never distributed over a sum.
-/
import proofs.«181944_j42949672961129_2_alg».proof.Proof.PairDefs
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PairMath

open Idealize.ShloMosaic Idealize.ShloMosaic.ValueIdx Cert.KernelIdeal Cert.KernelIdeal.Gen Cert.KernelIdeal.Pair

/-! ## The layout steps of one feature row, read at explicit coordinates -/

section Layout
variable {α : Type}

/-- A row offset `k` at which a [32,1,128] slice of a [32,16,128] block exists is below 16. -/
theorem row_lt {k : Nat} (hs : S32x16x128.Slices ![0, k, 0] S32x1x128) : k < 16 := by
  have h := hs.2 ⟨1, by decide⟩
  have h' : k + 1 ≤ 16 := h
  omega

/-- Row `k` of a [32,16,128] block, viewed as [32,128], reads (b, r) at (b, k, r). -/
theorem row_apply {k : Nat} (v : S32x16x128.Idx → α) (hs : S32x16x128.Slices ![0, k, 0] S32x1x128)
    (hc : S32x1x128.ShapeCasts S32x128) (b : Fin 32) (r : Fin 128) :
    shapeCast S32x128 (extractStridedSlice S32x1x128 ![0, k, 0] v hs) hc (ix2 b r) = v (ix3 b ⟨k, row_lt hs⟩ r) := by
  refine (shapeCast_apply _ hc (ix2 b r) (ix3 b (0 : Fin 1) r) ?_).trans ?_
  · rw [Shape.rowMajor_val_three, Shape.rowMajor_val_two]
    show (b.val * 1 + 0) * 128 + r.val = b.val * 128 + r.val
    omega
  · refine extractStridedSlice_apply _ v hs _ _ fun a => ?_
    match a with
    | ⟨0, _⟩ => show b.val = 0 + b.val; omega
    | ⟨1, _⟩ => show k = k + 0; omega
    | ⟨2, _⟩ => show r.val = 0 + r.val; omega

/-- A [32,128] array as a column [32,128,1] broadcast along the last axis reads (b, r, jj) at (b, r). -/
theorem col_apply (u : S32x128.Idx → α) (hc : S32x128.ShapeCasts S32x128x1) (hb : S32x128x1.Broadcasts S32x128x128)
    (b : Fin 32) (r jj : Fin 128) :
    broadcastTo S32x128x128 (shapeCast S32x128x1 u hc) hb (ix3 b r jj) = u (ix2 b r) := by
  refine (broadcastTo_apply _ hb (ix3 b r jj) (ix3 b r (0 : Fin 1)) fun a => ?_).trans ?_
  · match a with
    | ⟨0, _⟩ => rfl
    | ⟨1, _⟩ => rfl
    | ⟨2, _⟩ => rfl
  · refine shapeCast_apply u hc _ (ix2 b r) ?_
    rw [Shape.rowMajor_val_three, Shape.rowMajor_val_two]
    show b.val * 128 + r.val = (b.val * 128 + r.val) * 1 + 0
    omega

/-- A [32,128] array as a row [32,1,128] broadcast along the middle axis reads (b, r, jj) at (b, jj). -/
theorem rowb_apply (u : S32x128.Idx → α) (hc : S32x128.ShapeCasts S32x1x128) (hb : S32x1x128.Broadcasts S32x128x128)
    (b : Fin 32) (r jj : Fin 128) :
    broadcastTo S32x128x128 (shapeCast S32x1x128 u hc) hb (ix3 b r jj) = u (ix2 b jj) := by
  refine (broadcastTo_apply _ hb (ix3 b r jj) (ix3 b (0 : Fin 1) jj) fun a => ?_).trans ?_
  · match a with
    | ⟨0, _⟩ => rfl
    | ⟨1, _⟩ => rfl
    | ⟨2, _⟩ => rfl
  · refine shapeCast_apply u hc _ (ix2 b jj) ?_
    rw [Shape.rowMajor_val_three, Shape.rowMajor_val_two]
    show b.val * 128 + jj.val = (b.val * 1 + 0) * 128 + jj.val
    omega

end Layout

/-! ## One feature row's term of the distance, and the payloads at an index -/

/-- |mi(b,c,r) - mj(b,c,jj)| written with `max`. -/
def term (mi mj : S32x16x128.Idx → EReal) (b : Fin 32) (r jj : Fin 128) (c : Fin 16) : EReal :=
  max (mi (ix3 b c r) - mj (ix3 b c jj)) (-(mi (ix3 b c r) - mj (ix3 b c jj)))

/-- Row `k` of the two blocks, the first as a column and the second as a row, subtracted and the absolute
    value taken: at (b, r, jj) it is the term of row `k`. -/
theorem absdiff_apply {k : Nat} (v4 v6 : FVec Ideal S32x16x128 .f32) (hs : S32x16x128.Slices ![0, k, 0] S32x1x128)
    (hc : S32x1x128.ShapeCasts S32x128) (hc1 : S32x128.ShapeCasts S32x128x1) (hc2 : S32x128.ShapeCasts S32x1x128)
    (hb1 : S32x128x1.Broadcasts S32x128x128) (hb2 : S32x1x128.Broadcasts S32x128x128) (b : Fin 32) (r jj : Fin 128) :
    absf (subf
        (broadcastTo S32x128x128 (shapeCast S32x128x1 (shapeCast S32x128 (extractStridedSlice S32x1x128 ![0, k, 0] v4 hs) hc) hc1) hb1)
        (broadcastTo S32x128x128 (shapeCast S32x1x128 (shapeCast S32x128 (extractStridedSlice S32x1x128 ![0, k, 0] v6 hs) hc) hc2) hb2))
      (ix3 b r jj) = term v4 v6 b r jj ⟨k, row_lt hs⟩ := by
  show FloatOps.absf (FloatOps.subf _ _) = _
  rw [col_apply, rowb_apply, row_apply, row_apply, Ideal.absf_def, Ideal.subf_def]
  rfl

/-- A sum over the 16 feature rows is the left-nested sum of its 16 terms, from zero. -/
theorem sum16 (f : Fin 16 → EReal) :
    ∑ c : Fin 16, f c
      = 0 + f ⟨0, by omega⟩ + f ⟨1, by omega⟩ + f ⟨2, by omega⟩ + f ⟨3, by omega⟩ + f ⟨4, by omega⟩ + f ⟨5, by omega⟩
          + f ⟨6, by omega⟩ + f ⟨7, by omega⟩ + f ⟨8, by omega⟩ + f ⟨9, by omega⟩ + f ⟨10, by omega⟩ + f ⟨11, by omega⟩
          + f ⟨12, by omega⟩ + f ⟨13, by omega⟩ + f ⟨14, by omega⟩ + f ⟨15, by omega⟩ := by
  simp only [Fin.sum_univ_castSucc, Fin.sum_univ_zero]
  rfl

/-- The two blocks enter through a cast to their own shape, which changes nothing. -/
theorem k1_pay4_eq (v : Vec Ideal S32x16x128 .f32) : k1_pay4 (F := Ideal) v = v := shapeCast_self v _
theorem k1_pay5_eq (v : Vec Ideal S32x16x128 .f32) : k1_pay5 (F := Ideal) v = v := shapeCast_self v _

/-- An exponential read at an index is the exponential of the element. -/
theorem exp_apply {s : Shape} {φ : FTy} (a : FVec Ideal s φ) (i : s.Idx) : exp a i = Ideal.exp (a i) := rfl

/-- The lane index inserted on the last axis of a [32,128,128] block at (b, r) is (b, r, jj). -/
theorem lift_eq (h : S32x128x128.Reduces [2] S32x128) (b : Fin 32) (r jj : Fin 128) :
    h.lift (ix2 b r) jj = ix3 b r jj := by
  funext a
  refine Fin.ext ?_
  match a with
  | ⟨0, _⟩ => rfl
  | ⟨1, _⟩ => rfl
  | ⟨2, _⟩ => rfl

/-- The accumulator after a point, at (b, r). -/
theorem accStep_apply (mi mj : Vec Ideal S32x16x128 .f32) (acc : Vec Ideal S32x128 .f32) (b : Fin 32) (r : Fin 128) :
    accStep (F := Ideal) mi mj acc (ix2 b r)
      = acc (ix2 b r) + ∑ jj : Fin 128, Ideal.exp (-(∑ c : Fin 16,
          max (mi (ix3 b c r) - mj (ix3 b c jj)) (-(mi (ix3 b c r) - mj (ix3 b c jj))))) := by
  simp only [accStep, k1_pay1, k1_pay6, k1_pay7, k1_pay8, k1_pay9, k1_pay10, k1_pay11, k1_pay12, k1_pay13,
    k1_pay4_eq, k1_pay5_eq]
  rw [shapeCast_self, addf_apply]
  refine congrArg (acc (ix2 b r) + ·) ?_
  refine (Ideal.multiReduction_add_single _ _ _ _ _ _).trans ?_
  refine Finset.sum_congr rfl fun (jj : Fin 128) _ => ?_
  rw [lift_eq]
  show _ = Ideal.exp (-(∑ c : Fin 16, term mi mj b r jj c))
  rw [sum16]
  simp only [exp_apply, subf_apply, addf_apply, absdiff_apply, broadcast_apply, Ideal.ofBits_def, Ideal.ofBits_zero_f32]
  rw [sub_eq_add_neg, zero_add]

/-- The accumulator's reset value is zero everywhere. -/
theorem accZero_apply (b : Fin 32) (r : Fin 128) : accZero (F := Ideal) (ix2 b r) = 0 := by
  simp only [accZero, k1_pay3]
  rw [shapeCast_self, broadcast_apply]
  exact Ideal.ofBits_zero_f32

/-- The result block is the last accumulator minus the closing constant, kept as its binary word. -/
theorem outOf_apply (acc : Vec Ideal S32x128 .f32) (b : Fin 32) (r : Fin 128) :
    outOf (F := Ideal) acc (ix2 b r) = acc (ix2 b r) - Ideal.ofBits .f32 0x3F800000#32 := by
  simp only [outOf, k1_pay2]
  rfl

end Cert.KernelIdeal.PairMath

end
-- ==== Proof.Spec.lean ====
/-
  The pairwise statistic both programs compute, as one function of the projected features
  M : [512, 32, 16] over the extended reals:

      stat M (n, b) = (Σ_{j < 512} exp (-(Σ_{c < 16} |M(n,b,c) - M(j,b,c)|))) - 1

  |x| is max x (-x); the closing constant 1 is kept as the binary word both programs print.
-/
import Idealize.ShloMosaic.PureOps.Ideal
import Idealize.ShloMosaic.Lib.ValueIdx

noncomputable section

namespace Cert.PairSpec

open Idealize.ShloMosaic Idealize.ShloMosaic.ValueIdx

/-- The L1 distance between rows n and j of M in feature block b. -/
def dist (M : (⟨3, ![512, 32, 16]⟩ : Shape).Idx → EReal) (n j : Fin 512) (b : Fin 32) : EReal :=
  ∑ c : Fin 16, max (M (ix3 n b c) - M (ix3 j b c)) (-(M (ix3 n b c) - M (ix3 j b c)))

/-- Entry (n, b) of the statistic. -/
def stat (M : (⟨3, ![512, 32, 16]⟩ : Shape).Idx → EReal) (n : Fin 512) (b : Fin 32) : EReal :=
  (∑ j : Fin 512, Ideal.exp (-(dist M n j b))) - Ideal.ofBits .f32 0x3F800000#32

end Cert.PairSpec

end
-- ==== Proof.PairChain.lean ====
/-
  The pairwise kernel's accumulator chain read against the specification.

  For a row block i the kernel visits the four column blocks jb = 0, 1, 2, 3 in order; each
  visit adds to the accumulator, per (b, r), the sum over the block's 128 columns jj of
  exp (-(Σ_c |mi(b,c,r) - mj(b,c,jj)|)).  Starting from zero and closing with "minus one" the
  result at (b, r) is

      (Σ_{jb < 4} Σ_{jj < 128} exp (-(dist M (i*128 + r) (jb*128 + jj) b))) - 1
        = (Σ_{j < 512} exp (-(dist M (i*128 + r) j b))) - 1 = stat M (i*128 + r) b,

  the double sum being the single one re-indexed along (jb, jj) ↦ jb*128 + jj, a bijection
  Fin 4 × Fin 128 ≃ Fin 512.  Addition on the extended reals is a commutative monoid, which is
  all the regrouping uses.
-/
import proofs.«181944_j42949672961129_2_alg».proof.Proof.PairDefs
import proofs.«181944_j42949672961129_2_alg».proof.Proof.Spec
import Idealize.ShloMosaic.Lib.ValueIdx
import Idealize.ShloMosaic.PureOps.Ideal.Laws

noncomputable section

namespace Cert.KernelIdeal.PairChain

open Idealize.ShloMosaic Idealize.ShloMosaic.ValueIdx Cert.KernelIdeal Cert.KernelIdeal.Pair

/-- Row r of block i among the 512 rows: i * 128 + r. -/
def row (i : Fin 4) (r : Fin 128) : Fin 512 :=
  ⟨i.val * 128 + r.val, by have := i.isLt; have := r.isLt; omega⟩

@[simp] theorem row_val (i : Fin 4) (r : Fin 128) : (row i r).val = i.val * 128 + r.val := rfl

/-- (block, row in block) ↦ row: the 512 rows are four blocks of 128. -/
def rowEquiv : Fin 4 × Fin 128 ≃ Fin 512 where
  toFun p := row p.1 p.2
  invFun j := (⟨j.val / 128, by have := j.isLt; omega⟩, ⟨j.val % 128, by omega⟩)
  left_inv p := by
    obtain ⟨a, c⟩ := p
    have := a.isLt; have := c.isLt
    refine Prod.ext (Fin.ext ?_) (Fin.ext ?_)
    · show (a.val * 128 + c.val) / 128 = a.val; omega
    · show (a.val * 128 + c.val) % 128 = c.val; omega
  right_inv j := by
    refine Fin.ext ?_
    show j.val / 128 * 128 + j.val % 128 = j.val; omega

/-- A sum over the 512 rows is the sum over the four blocks of the sums over each block's rows. -/
theorem sum_rows {α : Type} [AddCommMonoid α] (f : Fin 512 → α) :
    ∑ j : Fin 512, f j = ∑ jb : Fin 4, ∑ jj : Fin 128, f (row jb jj) := by
  rw [← Equiv.sum_comp rowEquiv f, Fintype.sum_prod_type]
  rfl

/-- The result the kernel writes for row block i, from the accumulator carried over the four
    column blocks, is the statistic at the block's rows. -/
theorem out_eq_stat
    (hstep : ∀ (mi mj : Vec Ideal Cert.KernelIdeal.S32x16x128 .f32) (acc : Vec Ideal Cert.KernelIdeal.S32x128 .f32)
      (b : Fin 32) (r : Fin 128),
      Cert.KernelIdeal.Pair.accStep (F := Ideal) mi mj acc (ix2 b r)
        = acc (ix2 b r) + ∑ jj : Fin 128, Ideal.exp (-(∑ c : Fin 16,
            max (mi (ix3 b c r) - mj (ix3 b c jj)) (-(mi (ix3 b c r) - mj (ix3 b c jj))))))
    (hzero : ∀ (b : Fin 32) (r : Fin 128), Cert.KernelIdeal.Pair.accZero (F := Ideal) (ix2 b r) = 0)
    (hout : ∀ (acc : Vec Ideal Cert.KernelIdeal.S32x128 .f32) (b : Fin 32) (r : Fin 128),
      Cert.KernelIdeal.Pair.outOf (F := Ideal) acc (ix2 b r)
        = acc (ix2 b r) - Ideal.ofBits .f32 0x3F800000#32)
    (M : (⟨3, ![512, 32, 16]⟩ : Shape).Idx → EReal) (i : Fin 4)
    (mi : Vec Ideal Cert.KernelIdeal.S32x16x128 .f32) (mj : Fin 4 → Vec Ideal Cert.KernelIdeal.S32x16x128 .f32)
    (hmi : ∀ (b : Fin 32) (c : Fin 16) (r : Fin 128), mi (ix3 b c r) = M (ix3 (row i r) b c))
    (hmj : ∀ (jb : Fin 4) (b : Fin 32) (c : Fin 16) (r : Fin 128),
      mj jb (ix3 b c r) = M (ix3 (row jb r) b c))
    (b : Fin 32) (r : Fin 128) :
    Cert.KernelIdeal.Pair.outOf (F := Ideal)
        (accStep mi (mj 3) (accStep mi (mj 2) (accStep mi (mj 1) (accStep mi (mj 0) accZero))))
        (ix2 b r)
      = Cert.PairSpec.stat M (row i r) b := by
  rw [hout, hstep, hstep, hstep, hstep, hzero, zero_add]
  unfold Cert.PairSpec.stat
  refine congrArg (· - _) ?_
  rw [sum_rows, Fin.sum_univ_four]
  simp only [hmi, hmj]
  rfl

end Cert.KernelIdeal.PairChain

end
-- ==== Proof.OutChain.lean ====
/-
  The result block the pairwise kernel writes back, read against the specification.

  Only the grid points t with t % 4 = 3 write the result window's block back.  At such a point the
  result's staging buffer holds "the accumulator minus one", the accumulator having been reset at
  point t - 3 and stepped at t - 3, t - 2, t - 1, t with the row block t / 4 (the same block at
  all four points) against the column blocks 0, 1, 2, 3.  With the array the two windows share
  read as the projected features M(n, b, c) = array(b, c, n), that is the statistic's row block:

      result (b, r) = stat M ((t / 4) * 128 + r) b.
-/
import proofs.«181944_j42949672961129_2_alg».proof.Proof.Region1
import proofs.«181944_j42949672961129_2_alg».proof.Proof.Blocks
import proofs.«181944_j42949672961129_2_alg».proof.Proof.PairPayload
import proofs.«181944_j42949672961129_2_alg».proof.Proof.PairChain
import proofs.«181944_j42949672961129_2_alg».proof.Proof.Pieces
import proofs.«181944_j42949672961129_2_alg».proof.Proof.Spec

noncomputable section

namespace Cert.KernelIdeal.OutChain

open Idealize.ShloMosaic Idealize.ShloMosaic.TcCoe Idealize.ShloMosaic.ValueIdx Idealize.SL.Sem
open Cert.KernelIdeal Cert.KernelIdeal.Gen Cert.KernelIdeal.Frame

variable (V : (c : Dev nD) → (b : Ref sig .tc) → Buf (Elt Ideal) ((c : Thread nD τ).loc b))

/-- The projected features as the pairwise kernel's operand holds them: M(n, b, c) = array(b, c, n). -/
abbrev feat (c : Dev nD) : (⟨3, ![512, 32, 16]⟩ : Shape).Idx → EReal :=
  fun i => (V c main_v5 : Vec Ideal S32x16x512 .f32) (ix3 (i 1) (i 2) (i 0))

/-- Window 0's block is the same at two points of one grid row. -/
theorem iblk1_0_same (c : Dev nD) (t t' : Fin cfg1.N) (h : t.val / 4 = t'.val / 4) :
    (iblk1 V c 0 t : Vec Ideal S32x16x128 .f32) = iblk1 V c 0 t' := by
  funext j
  obtain ⟨b, cc, r, rfl⟩ : ∃ b cc r, j = ix3 b cc r := ⟨j 0, j 1, j 2, eq_ix3 j⟩
  rw [Blocks.iblk1_0_apply V c t b cc r, Blocks.iblk1_0_apply V c t' b cc r]
  exact congrArg (fun n => (V c main_v5 : Vec Ideal S32x16x512 .f32) (ix3 b cc n)) (Fin.ext (by show t.val / 4 * 128 + r.val = t'.val / 4 * 128 + r.val; rw [h]))

/-- At the first point of a grid row the accumulator is one step from zero. -/
theorem acc_first (c : Dev nD) (n : ℕ) (hn : n < cfg1.N) (h0 : n % 4 = 0) :
    (outsAt1 V c n hn).2 = Pair.accStep (iblk1 V c 0 ⟨n, hn⟩) (iblk1 V c 1 ⟨n, hn⟩) Pair.accZero :=
  have h1 : ¬(⟨n, hn⟩ : Fin cfg1.N).val % 4 = 3 := by show ¬n % 4 = 3; omega
  (congrArg Prod.snd (outsAt1_A V c ⟨n, hn⟩ h0 h1)).trans
    (Pieces.sout1_A_eq (F := Ideal) c (grid1.coords ⟨n, hn⟩) (ms1_0 ⟨n, hn⟩) (hs1_0 ⟨n, hn⟩) (ms1_1 ⟨n, hn⟩) (hs1_1 ⟨n, hn⟩)
      (ms1_2 ⟨n, hn⟩) (hs1_2 ⟨n, hn⟩) scM1 (Memref.isWhole_whole _) ((hcond1_0 ⟨n, hn⟩).mpr h0) (fun h => h1 ((hcond1_1 ⟨n, hn⟩).mp h))
      (iblk1 V c 0 ⟨n, hn⟩) (iblk1 V c 1 ⟨n, hn⟩))

/-- At a middle point of a grid row the accumulator is one step from the point before. -/
theorem acc_mid (c : Dev nD) (n : ℕ) (hn : n + 1 < cfg1.N) (h0 : ¬(n + 1) % 4 = 0) (h1 : ¬(n + 1) % 4 = 3) :
    (outsAt1 V c (n + 1) hn).2
      = Pair.accStep (iblk1 V c 0 ⟨n + 1, hn⟩) (iblk1 V c 1 ⟨n + 1, hn⟩) (outsAt1 V c n (Nat.lt_of_succ_lt hn)).2 :=
  (congrArg Prod.snd (outsAt1_B V c ⟨n + 1, hn⟩ h0 h1)).trans
    (Pieces.sout1_B_eq (F := Ideal) c (grid1.coords ⟨n + 1, hn⟩) (ms1_0 ⟨n + 1, hn⟩) (hs1_0 ⟨n + 1, hn⟩) (ms1_1 ⟨n + 1, hn⟩) (hs1_1 ⟨n + 1, hn⟩)
      (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h))
      (iblk1 V c 0 ⟨n + 1, hn⟩) (iblk1 V c 1 ⟨n + 1, hn⟩) (outsAt1 V c n (Nat.lt_of_succ_lt hn)).2)

/-- At the last point of a grid row the result block is one more step, minus one. -/
theorem out_last (c : Dev nD) (n : ℕ) (hn : n + 1 < cfg1.N) (h1 : (n + 1) % 4 = 3) :
    (outsAt1 V c (n + 1) hn).1
      = Pair.outOf (Pair.accStep (iblk1 V c 0 ⟨n + 1, hn⟩) (iblk1 V c 1 ⟨n + 1, hn⟩) (outsAt1 V c n (Nat.lt_of_succ_lt hn)).2) :=
  have h0 : ¬(⟨n + 1, hn⟩ : Fin cfg1.N).val % 4 = 0 := by show ¬(n + 1) % 4 = 0; omega
  (congrArg Prod.fst (outsAt1_C V c ⟨n + 1, hn⟩ h0 h1)).trans
    (Pieces.out1_C_2_eq (F := Ideal) c (grid1.coords ⟨n + 1, hn⟩) (ms1_0 ⟨n + 1, hn⟩) (hs1_0 ⟨n + 1, hn⟩) (ms1_1 ⟨n + 1, hn⟩) (hs1_1 ⟨n + 1, hn⟩)
      (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1)
      (iblk1 V c 0 ⟨n + 1, hn⟩) (iblk1 V c 1 ⟨n + 1, hn⟩) (outsAt1 V c n (Nat.lt_of_succ_lt hn)).2)

/-- The column blocks met along the grid row that starts at point s, in order. -/
def colBlocks (c : Dev nD) (s : ℕ) (hs : s + 1 + 1 + 1 < cfg1.N) : Fin 4 → Vec Ideal S32x16x128 .f32 := fun jb =>
  match jb with
  | ⟨0, _⟩ => iblk1 V c 1 ⟨s, by omega⟩
  | ⟨1, _⟩ => iblk1 V c 1 ⟨s + 1, by omega⟩
  | ⟨2, _⟩ => iblk1 V c 1 ⟨s + 1 + 1, by omega⟩
  | ⟨3, _⟩ => iblk1 V c 1 ⟨s + 1 + 1 + 1, hs⟩

/-- Along a grid row (s a multiple of 4) the jb-th column block met is column block jb of the features. -/
theorem colBlocks_apply (c : Dev nD) (s : ℕ) (hs : s + 1 + 1 + 1 < cfg1.N) (h0 : s % 4 = 0)
    (jb : Fin 4) (b : Fin 32) (cc : Fin 16) (r : Fin 128) :
    colBlocks V c s hs jb (ix3 b cc r) = feat V c (ix3 (PairChain.row jb r) b cc) := by
  match jb with
  | ⟨0, _⟩ =>
    exact (Blocks.iblk1_1_apply V c ⟨s, by omega⟩ b cc r).trans
      (congrArg (fun n => (V c main_v5 : Vec Ideal S32x16x512 .f32) (ix3 b cc n))
        (Fin.ext (by show s % 4 * 128 + r.val = 0 * 128 + r.val; omega)))
  | ⟨1, _⟩ =>
    exact (Blocks.iblk1_1_apply V c ⟨s + 1, by omega⟩ b cc r).trans
      (congrArg (fun n => (V c main_v5 : Vec Ideal S32x16x512 .f32) (ix3 b cc n))
        (Fin.ext (by show (s + 1) % 4 * 128 + r.val = 1 * 128 + r.val; omega)))
  | ⟨2, _⟩ =>
    exact (Blocks.iblk1_1_apply V c ⟨s + 1 + 1, by omega⟩ b cc r).trans
      (congrArg (fun n => (V c main_v5 : Vec Ideal S32x16x512 .f32) (ix3 b cc n))
        (Fin.ext (by show (s + 1 + 1) % 4 * 128 + r.val = 2 * 128 + r.val; omega)))
  | ⟨3, _⟩ =>
    exact (Blocks.iblk1_1_apply V c ⟨s + 1 + 1 + 1, hs⟩ b cc r).trans
      (congrArg (fun n => (V c main_v5 : Vec Ideal S32x16x512 .f32) (ix3 b cc n))
        (Fin.ext (by show (s + 1 + 1 + 1) % 4 * 128 + r.val = 3 * 128 + r.val; omega)))

/-- At a point that writes the result block back, the result's staging buffer holds the statistic's
    row block of the point's grid row. -/
theorem out_at_flush (c : Dev nD) (t : Fin cfg1.N) (h3 : t.val % 4 = 3) (b : Fin 32) (r : Fin 128) :
    (outsAt1 V c t.val t.isLt).1 (ix2 b r)
      = Cert.PairSpec.stat (feat V c)
          ⟨(t.val / 4) * 128 + r.val, by have := Blocks.lt16 t; have := r.isLt; omega⟩ b := by
  obtain ⟨n, hn⟩ := t
  have h16 : n < 16 := Blocks.lt16 ⟨n, hn⟩
  have h3' : n % 4 = 3 := h3
  obtain ⟨s, rfl⟩ : ∃ s, n = s + 1 + 1 + 1 := ⟨n - 3, by omega⟩
  have hs : s % 4 = 0 := by omega
  have hn2 : s + 1 + 1 < cfg1.N := Nat.lt_of_succ_lt hn
  have hn1 : s + 1 < cfg1.N := Nat.lt_of_succ_lt hn2
  have hn0 : s < cfg1.N := Nat.lt_of_succ_lt hn1
  show (outsAt1 V c (s + 1 + 1 + 1) hn).1 (ix2 b r) = _
  rw [out_last V c (s + 1 + 1) hn (by omega), acc_mid V c (s + 1) hn2 (by omega) (by omega),
    acc_mid V c s hn1 (by omega) (by omega), acc_first V c s hn0 hs]
  -- the row block is the same at the four points of the grid row
  rw [iblk1_0_same V c ⟨s + 1 + 1, hn2⟩ ⟨s + 1 + 1 + 1, hn⟩ (by show (s + 1 + 1) / 4 = (s + 1 + 1 + 1) / 4; omega),
    iblk1_0_same V c ⟨s + 1, hn1⟩ ⟨s + 1 + 1 + 1, hn⟩ (by show (s + 1) / 4 = (s + 1 + 1 + 1) / 4; omega),
    iblk1_0_same V c ⟨s, hn0⟩ ⟨s + 1 + 1 + 1, hn⟩ (by show s / 4 = (s + 1 + 1 + 1) / 4; omega)]
  exact PairChain.out_eq_stat PairMath.accStep_apply PairMath.accZero_apply PairMath.outOf_apply (feat V c)
    ⟨(s + 1 + 1 + 1) / 4, by omega⟩ (iblk1 V c 0 ⟨s + 1 + 1 + 1, hn⟩) (colBlocks V c s hn)
    (fun b cc r => Blocks.iblk1_0_apply V c ⟨s + 1 + 1 + 1, hn⟩ b cc r)
    (colBlocks_apply V c s hn hs) b r

end Cert.KernelIdeal.OutChain

end
-- ==== Proof.RefSide.lean ====
/-
  The reference program read against the specification of the pairwise statistic.

  (1) The reference's result block is the statistic of its own projected features:
        result (n, b) = (Σ_{j < 512} exp (-(Σ_{c < 16} |M(n,b,c) - M(j,b,c)|))) - 1
      where M is the reference's reshaped product.
  (2) The product computed by the kernel from the narrowed operands equals the reference's
      product; at the ideal values narrowing a float is the identity and both products are the
      same sum over the contraction index.
  (3) Hence the kernel's reshaped product is the reference's projected features M.
-/
import proofs.«181944_j42949672961129_2_alg».proof.Proof.Gen.ReferenceIdeal.Read
import proofs.«181944_j42949672961129_2_alg».proof.Proof.Spec
import proofs.«181944_j42949672961129_2_alg».proof.Proof.PairDefs
import Idealize.ShloMosaic.Lib.ValueIdx
import Idealize.ShloMosaic.Lib.Pipeline.Value
import Idealize.ShloMosaic.PureOps.Ideal.Laws

noncomputable section

namespace Cert.ReferenceIdeal.RefMath

open Idealize.ShloMosaic Idealize.ShloMosaic.ValueIdx Cert.ReferenceIdeal Cert.ReferenceIdeal.Read

/-- The reference's result block at (n, b) is the statistic of its projected features at (n, b). -/
theorem val_main_v14_eq_stat (x0 : S512x512.Idx → EReal) (x1 : S512x32x16.Idx → EReal)
    (n : Fin 512) (b : Fin 32) :
    Cert.ReferenceIdeal.Read.val_main_v14 (F := Ideal) x0 x1 (ix2 n b)
      = Cert.PairSpec.stat (Cert.ReferenceIdeal.Read.val_main_v2 (F := Ideal) x0 x1) n b := by
  rw [val_main_v14_apply, val_main_v13_apply, val_main_cst_1_apply, val_main_v12_apply,
    val_main_cst_0_apply]
  simp only [Ideal.subf_def, Ideal.ofBits_def, Ideal.ofBits_zero_f32, zero_add]
  unfold Cert.PairSpec.stat
  refine congrArg (· - _) (Finset.sum_congr rfl fun j _ => ?_)
  rw [val_main_v11_apply, val_main_v10_apply, val_main_v9_apply, val_main_cst_apply]
  simp only [Ideal.hostUnary_exp_def, Ideal.hostNegf_def, Ideal.negf_def, Ideal.ofBits_def,
    Ideal.ofBits_zero_f32, zero_add]
  unfold Cert.PairSpec.dist
  refine congrArg (fun t => Ideal.exp (-t)) (Finset.sum_congr rfl fun c _ => ?_)
  rw [val_main_v8_apply, val_main_v7_apply, val_main_v5_apply, val_main_v6_apply,
    val_main_v3_apply, val_main_v4_apply]
  simp only [Ideal.hostAbsf_def, Ideal.absf_def, Ideal.subf_def]
  have e1 : idx_main_v3 (idx_main_v5 (idx_main_v9 (idx_main_v12 (ix2 n b) j) c)) = ix3 n b c :=
    funext fun a => Fin.ext (by match a with | ⟨0, _⟩ => rfl | ⟨1, _⟩ => rfl | ⟨2, _⟩ => rfl)
  have e2 : idx_main_v4 (idx_main_v6 (idx_main_v9 (idx_main_v12 (ix2 n b) j) c)) = ix3 j b c :=
    funext fun a => Fin.ext (by match a with | ⟨0, _⟩ => rfl | ⟨1, _⟩ => rfl | ⟨2, _⟩ => rfl)
  rw [e1, e2]

/-- The kernel's product of the narrowed operands is the reference's product: narrowing is the
    identity at the ideal values, a reshape to the same shape is the identity, and both products
    are the same sum over the contraction index. -/
theorem prod_eq_val_main_v1 [Cert.KernelIdeal.Facts] [Cert.ReferenceIdeal.Facts]
    (x0 : S512x512.Idx → EReal) (x1 : S512x32x16.Idx → EReal) :
    Cert.KernelIdeal.Pair.prod (F := Ideal)
        (truncf (F := Ideal) (φ := .f32) .bf16 x0 Cert.KernelIdeal.Facts₀.bitsLt_bf16_f32)
        (truncf (F := Ideal) (φ := .f32) .bf16 (shapeCast Cert.KernelIdeal.S512x512 x1
          Cert.KernelIdeal.Facts₀.shapeCasts_S512x32x16_S512x512) Cert.KernelIdeal.Facts₀.bitsLt_bf16_f32)
      = Cert.ReferenceIdeal.Read.val_main_v1 (F := Ideal) x0 x1 := by
  funext j
  unfold Cert.KernelIdeal.Pair.prod Cert.KernelIdeal.Gen.k0_pay1
  rw [shapeCast_self, shapeCast_self]
  refine (Ideal.matmul_constant_zero_apply
    Cert.KernelIdeal.dot_S512x512_S512x512_S512x512_1_0_0_1_n_n none _ _ j).trans ?_
  unfold val_main_v1 val_main_v0
  refine Eq.trans ?_ (Ideal.dotGeneral_apply
    Cert.ReferenceIdeal.dot_S512x512_S512x512_S512x512_1_0_0_1_n_n none .single _ _ j).symm
  -- both sides are the sum over the contraction index of the same products: the two dimension
  -- records have the same fields and narrowing reads as the identity
  rfl

/-- The kernel's reshaped product is the reference's projected features. -/
theorem shapeCast_prod_eq_val_main_v2 [Cert.KernelIdeal.Facts] [Cert.ReferenceIdeal.Facts]
    (x0 : S512x512.Idx → EReal) (x1 : S512x32x16.Idx → EReal) :
    shapeCast Cert.KernelIdeal.S512x32x16
        (Cert.KernelIdeal.Pair.prod (F := Ideal)
          (truncf (F := Ideal) (φ := .f32) .bf16 x0 Cert.KernelIdeal.Facts₀.bitsLt_bf16_f32)
          (truncf (F := Ideal) (φ := .f32) .bf16 (shapeCast Cert.KernelIdeal.S512x512 x1
            Cert.KernelIdeal.Facts₀.shapeCasts_S512x32x16_S512x512) Cert.KernelIdeal.Facts₀.bitsLt_bf16_f32))
        Cert.KernelIdeal.Facts₀.shapeCasts_S512x512_S512x32x16
      = Cert.ReferenceIdeal.Read.val_main_v2 (F := Ideal) x0 x1 := by
  rw [prod_eq_val_main_v1]
  rfl

end Cert.ReferenceIdeal.RefMath

end
-- ==== Proof.Result.lean ====
/-
  The idealized kernel's result, read at the extended reals. The product kernel leaves x · T_flat (the
  two casts are the identity on extended reals), which reshaped is the reference's projected features
  M : [512, 32, 16]; the pairwise kernel's operand is M transposed to [32, 16, 512], its result array
  holds, at (b, n), the statistic Σ_j exp(-Σ_c |M(n,b,c) - M(j,b,c)|) - 1 — four column blocks
  accumulated in the scratch per row block, the result block written from the last accumulator —, and
  transposed back and joined to x this is the reference's result.
-/
import proofs.«181944_j42949672961129_2_alg».proof.Proof.HostStages
import proofs.«181944_j42949672961129_2_alg».proof.Proof.Pieces
import proofs.«181944_j42949672961129_2_alg».proof.Proof.Blocks
import proofs.«181944_j42949672961129_2_alg».proof.Proof.Finals
import proofs.«181944_j42949672961129_2_alg».proof.Proof.OutChain
import proofs.«181944_j42949672961129_2_alg».proof.Proof.RefSide

set_option maxRecDepth 16384

noncomputable section

namespace Cert.KernelIdeal.Result

open Idealize.ShloMosaic Idealize.ShloMosaic.TcCoe Idealize.ShloMosaic.ValueIdx Idealize.SL.Sem
open Cert.KernelIdeal Cert.KernelIdeal.Gen Cert.KernelIdeal.Frame

variable [Cert.ReferenceIdeal.Facts]
variable (m : (ℓ : Loc nD τ sig) → Buf (Elt Ideal) ℓ)

/-- The reference's projected features of the launch contents. -/
abbrev feat (c : Dev nD) : (⟨3, ![512, 32, 16]⟩ : Shape).Idx → EReal :=
  Cert.ReferenceIdeal.Read.val_main_v2 (F := Ideal) (m ((c : Thread nD τ).loc main_arg0)) (m ((c : Thread nD τ).loc main_arg1))

/-- The product kernel's result array: the product of the cast operands. -/
theorem V2_v3 (c : Dev nD) : V2 m c main_v3
    = Pair.prod (F := Ideal) (truncf (F := Ideal) (φ := .f32) .bf16 (m ((c : Thread nD τ).loc main_arg0)) bitsLt_bf16_f32)
        (truncf (F := Ideal) (φ := .f32) .bf16 (shapeCast S512x512 (m ((c : Thread nD τ).loc main_arg1)) shapeCasts_S512x32x16_S512x512) bitsLt_bf16_f32) := by
  refine (W2_arr m c 2).trans ((Finals.final0 (V1 m) c).trans ((Pieces.out0_2_eq _ _).trans ?_))
  rw [Blocks.iblk0_0_eq, Blocks.iblk0_1_eq, V1_v1, V1_v2]

/-- The pairwise kernel's operand at (b, cc, n) is the projected feature (n, b, cc). -/
theorem V3_v5_apply (c : Dev nD) (b : Fin 32) (cc : Fin 16) (n : Fin 512) :
    (V3 m c main_v5 : Vec Ideal S32x16x512 .f32) (ix3 b cc n) = feat m c (ix3 n b cc) := by
  rw [V3_v5, transpose_apply [1, 2, 0] _ transposes_S512x32x16_S32x16x512_1_2_0 (ix3 b cc n) (ix3 n b cc)
    (fun a => by match a with | ⟨0, _⟩ => rfl | ⟨1, _⟩ => rfl | ⟨2, _⟩ => rfl), V2_v3,
    Cert.ReferenceIdeal.RefMath.shapeCast_prod_eq_val_main_v2]

/-- The statistic as the contents of the pairwise kernel's result array [32, 512]. -/
def statArr (c : Dev nD) : Buf (Elt Ideal) ((c : Thread nD τ).loc main_v6) :=
  fun i => Cert.PairSpec.stat (feat m c) (i 1) (i 0)

/-- The pairwise kernel's result array holds the statistic. -/
theorem V4_v6 (c : Dev nD) : V4 m c main_v6 = statArr m c := by
  refine (W4_v6 m c).trans (Finals.final1 (V3 m) c (statArr m c) fun t h3 b r => ?_)
  rw [OutChain.out_at_flush (V3 m) c t h3 b r]
  show Cert.PairSpec.stat _ _ b = Cert.PairSpec.stat (feat m c) _ b
  congr 1
  funext i
  rw [eq_ix3 i]
  exact V3_v5_apply m c (i 1) (i 2) (i 0)

/-- Transposed back it is the reference's result block. -/
theorem transpose_statArr (c : Dev nD) :
    transpose S512x32 [1, 0] (statArr m c) transposes_S32x512_S512x32_1_0
      = Cert.ReferenceIdeal.Read.val_main_v14 (F := Ideal) (m ((c : Thread nD τ).loc main_arg0)) (m ((c : Thread nD τ).loc main_arg1)) := by
  funext i
  obtain ⟨n, b, rfl⟩ : ∃ (n : Fin 512) (b : Fin 32), i = ix2 n b := ⟨i 0, i 1, eq_ix2 i⟩
  refine (transpose_apply [1, 0] (statArr m c) transposes_S32x512_S512x32_1_0 (ix2 n b) (ix2 b n)
    (fun a => by match a with | ⟨0, _⟩ => rfl | ⟨1, _⟩ => rfl)).trans ?_
  exact (Cert.ReferenceIdeal.RefMath.val_main_v14_eq_stat _ _ n b).symm

/-- So the kernel's result is the reference's. -/
theorem result_eq (c : Dev nD) : W5 m c (Proc.devRef .tc main_v8)
    = Cert.ReferenceIdeal.Read.val_main_v15 (F := Ideal) (m ((c : Thread nD τ).loc main_arg0)) (m ((c : Thread nD τ).loc main_arg1)) := by
  rw [W5_v8, W4_main_arg0, show W4 m c (Proc.devRef .tc main_v6) = V4 m c main_v6 from rfl, V4_v6, transpose_statArr]
  rfl

end Cert.KernelIdeal.Result

end
-- ==== Proof.lean ====
/-
  The certificate of a minibatch-discrimination kernel against its jnp reference, over the extended
  reals. For x : [512, 512] and T : [512, 32, 16] both programs return x joined, along axis 1, with

      out(n, b) = Σ_{j < 512} exp(-Σ_{c < 16} |M(n,b,c) - M(j,b,c)|) - 1,     M = (x · T_flat) as [512, 32, 16].

  The kernel computes M by one matrix-unit call on casts of x and T_flat (a cast is the identity on
  extended reals, and a matrix product into a zero accumulator is the same finite sum as the
  reference's dot_general), transposes it so that the row index is the lane axis, and runs a 4 x 4
  grid: for row block i the 16 feature columns are subtracted pairwise and summed in a fixed order,
  exp(0 - d) is summed over a column block's 128 lanes and added to a scratch accumulator that is reset
  at column block 0 and, after column block 3, written back less one. Sums of extended reals commute and
  associate, 0 - d = -d, and 512 = 4 · 128, so this is the reference's two host sums; no finiteness of
  the inputs is used.

  Frames (each program terminates, faults nowhere, leaves its arguments unchanged): @main is five
  segments — host lines, the product kernel's region, host lines, the pairwise kernel's region, host
  lines —; each region's body is run once per case of its branch conditions and the accumulator is
  carried through the region's invariant; the pairwise kernel's two input windows read one array, whose
  ownership is split in halves on entry and joined on exit. The same text at the word-level instance
  gives the printed kernel's frame. The idealization rewrote nothing, so preserves is trivial.
-/
import proofs.«181944_j42949672961129_2_alg».proof.Defs
import proofs.«181944_j42949672961129_2_alg».proof.Proof.Gen.Kernel
import proofs.«181944_j42949672961129_2_alg».proof.Proof.Gen.KernelIdeal
import proofs.«181944_j42949672961129_2_alg».proof.Proof.Gen.ReferenceIdeal
import proofs.«181944_j42949672961129_2_alg».proof.Proof.Gen.Pre_finite_inputs
import proofs.«181944_j42949672961129_2_alg».proof.Proof.Gen.ReferenceIdeal.Run
import proofs.«181944_j42949672961129_2_alg».proof.Proof.Gen.ReferenceIdeal.Read
import proofs.«181944_j42949672961129_2_alg».proof.Proof.BHostStages
import proofs.«181944_j42949672961129_2_alg».proof.Proof.Result
import Idealize.ShloMosaic.Adequacy
import Idealize.ShloMosaic.Init

noncomputable section

namespace Cert.Proof

open Idealize.ShloMosaic Idealize.ShloMosaic.TcCoe Idealize.SL.Sem

/-- The printed kernel runs and leaves its arguments as launched. -/
theorem frame_k : Cert.frame_Kernel := fun m ρ _ =>
  (θ_run (Cert.Kernel.defs (F := Bits)) _ _).mono
    (fun r h c => ⟨(h c _ (Cert.Kernel.Frame.mem_uc Cert.Kernel.main_arg0 (by decide))).trans (Cert.Kernel.Frame.W5_main_arg0 m c),
      (h c _ (Cert.Kernel.Frame.mem_uc Cert.Kernel.main_arg1 (by decide))).trans (Cert.Kernel.Frame.W5_main_arg1 m c)⟩)
    (Cert.Kernel.Frame.run_main (F := Bits) m ρ)

/-- So does its idealization. -/
theorem frame_ki : Cert.frame_KernelIdeal := fun m ρ _ =>
  (θ_run (Cert.KernelIdeal.defs (F := Ideal)) _ _).mono
    (fun r h c => ⟨(h c _ (Cert.KernelIdeal.Frame.mem_uc Cert.KernelIdeal.main_arg0 (by decide))).trans (Cert.KernelIdeal.Frame.W5_main_arg0 m c),
      (h c _ (Cert.KernelIdeal.Frame.mem_uc Cert.KernelIdeal.main_arg1 (by decide))).trans (Cert.KernelIdeal.Frame.W5_main_arg1 m c)⟩)
    (Cert.KernelIdeal.Frame.run_main (F := Ideal) m ρ)

/-- And the reference: a straight line of host operations. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on x and T both idealized programs end with the same result: x joined with
    the pairwise statistic of M = x · T_flat. -/
theorem algebraic : Cert.algebraic_KernelIdeal_ReferenceIdeal := by
  intro m ρ m' ρ' _ hagree
  refine ⟨fun c => Cert.ReferenceIdeal.Read.val_main_v15 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run (Cert.KernelIdeal.defs (F := Ideal)) _ _).mono
      (fun r h c => ⟨(h c _ (Cert.KernelIdeal.Frame.mem_uc Cert.KernelIdeal.main_v8 (by decide))).trans (Cert.KernelIdeal.Result.result_eq m c),
        (h c _ (Cert.KernelIdeal.Frame.mem_uc Cert.KernelIdeal.main_arg0 (by decide))).trans (Cert.KernelIdeal.Frame.W5_main_arg0 m c),
        (h c _ (Cert.KernelIdeal.Frame.mem_uc Cert.KernelIdeal.main_arg1 (by decide))).trans (Cert.KernelIdeal.Frame.W5_main_arg1 m c)⟩)
      (Cert.KernelIdeal.Frame.run_main (F := Ideal) m ρ)
  · refine (θ_run Cert.ReferenceIdeal.defs _ _).mono (fun _ h c => ⟨?_, (h c).2.1, (h c).2.2⟩)
      (Cert.ReferenceIdeal.Value.run (F := Ideal) m' ρ')
    rw [(h c).1, Cert.ReferenceIdeal.Read.val_main_v15_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
